-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x65536 : Shape := ⟨3, ![1, 512, 65536]⟩
abbrev S_ : Shape := ⟨0, ![]⟩

class Facts : Prop where
  bcast_S_S1x512x65536 : S_.BroadcastsInDim S1x512x65536 (![] : Fin 0 → Fin S1x512x65536.rank)
  reducesTo_S1x512x65536_S_d0_1_2 : S1x512x65536.ReducesTo [0, 1, 2] S_
  h_S_ : 0 < S_.numel

variable [Facts]

def fn_part2 {F : FTy → Type} [FloatOps F] (main_arg7 : FVec F S1x512x65536 .f32) (main_v33 : IVec S_ 1) : IVec S_ 1 :=
  let main_v34 : FVec F S1x512x65536 .f32 := Host.absf main_arg7
  let main_cst_12 : FVec F S_ .f32 := constant S_ .f32 0x7F800000#32
  let main_v35 : FVec F S1x512x65536 .f32 := broadcastInDim S1x512x65536 ![] bcast_S_S1x512x65536 main_cst_12
  let main_v36 : IVec S1x512x65536 1 := cmpf .olt main_v34 main_v35
  let main_c_13 : IVec S_ 1 := constantI S_ 1 1#1
  let main_v37 : IVec S_ 1 := (fun x v => Host.reduce IntOp.andi x v reducesTo_S1x512x65536_S_d0_1_2 h_S_) main_v36 main_c_13
  let main_v38 : IVec S_ 1 := andi main_v33 main_v37
  main_v38

def fn_part1 {F : FTy → Type} [FloatOps F] (main_arg4 : FVec F S1x512x65536 .f32) (main_arg5 : FVec F S1x512x65536 .f32) (main_arg6 : FVec F S1x512x65536 .f32) (main_arg7 : FVec F S1x512x65536 .f32) (main_v13 : IVec S_ 1) (main_v16 : IVec S1x512x65536 1) : IVec S_ 1 :=
  let main_c_5 : IVec S_ 1 := constantI S_ 1 1#1
  let main_v17 : IVec S_ 1 := (fun x v => Host.reduce IntOp.andi x v reducesTo_S1x512x65536_S_d0_1_2 h_S_) main_v16 main_c_5
  let main_v18 : IVec S_ 1 := andi main_v13 main_v17
  let main_v19 : FVec F S1x512x65536 .f32 := Host.absf main_arg4
  let main_cst_6 : FVec F S_ .f32 := constant S_ .f32 0x7F800000#32
  let main_v20 : FVec F S1x512x65536 .f32 := broadcastInDim S1x512x65536 ![] bcast_S_S1x512x65536 main_cst_6
  let main_v21 : IVec S1x512x65536 1 := cmpf .olt main_v19 main_v20
  let main_c_7 : IVec S_ 1 := constantI S_ 1 1#1
  let main_v22 : IVec S_ 1 := (fun x v => Host.reduce IntOp.andi x v reducesTo_S1x512x65536_S_d0_1_2 h_S_) main_v21 main_c_7
  let main_v23 : IVec S_ 1 := andi main_v18 main_v22
  let main_v24 : FVec F S1x512x65536 .f32 := Host.absf main_arg5
  let main_cst_8 : FVec F S_ .f32 := constant S_ .f32 0x7F800000#32
  let main_v25 : FVec F S1x512x65536 .f32 := broadcastInDim S1x512x65536 ![] bcast_S_S1x512x65536 main_cst_8
  let main_v26 : IVec S1x512x65536 1 := cmpf .olt main_v24 main_v25
  let main_c_9 : IVec S_ 1 := constantI S_ 1 1#1
  let main_v27 : IVec S_ 1 := (fun x v => Host.reduce IntOp.andi x v reducesTo_S1x512x65536_S_d0_1_2 h_S_) main_v26 main_c_9
  let main_v28 : IVec S_ 1 := andi main_v23 main_v27
  let main_v29 : FVec F S1x512x65536 .f32 := Host.absf main_arg6
  let main_cst_10 : FVec F S_ .f32 := constant S_ .f32 0x7F800000#32
  let main_v30 : FVec F S1x512x65536 .f32 := broadcastInDim S1x512x65536 ![] bcast_S_S1x512x65536 main_cst_10
  let main_v31 : IVec S1x512x65536 1 := cmpf .olt main_v29 main_v30
  let main_c_11 : IVec S_ 1 := constantI S_ 1 1#1
  let main_v32 : IVec S_ 1 := (fun x v => Host.reduce IntOp.andi x v reducesTo_S1x512x65536_S_d0_1_2 h_S_) main_v31 main_c_11
  let main_v33 : IVec S_ 1 := andi main_v28 main_v32
  fn_part2 (F := F) main_arg7 main_v33

def fn {F : FTy → Type} [FloatOps F] (main_arg0 : FVec F S1x512x65536 .f32) (main_arg1 : FVec F S1x512x65536 .f32) (main_arg2 : FVec F S1x512x65536 .f32) (main_arg3 : FVec F S1x512x65536 .f32) (main_arg4 : FVec F S1x512x65536 .f32) (main_arg5 : FVec F S1x512x65536 .f32) (main_arg6 : FVec F S1x512x65536 .f32) (main_arg7 : FVec F S1x512x65536 .f32) : IVec S_ 1 :=
  let main_v0 : FVec F S1x512x65536 .f32 := Host.absf main_arg0
  let main_cst : FVec F S_ .f32 := constant S_ .f32 0x7F800000#32
  let main_v1 : FVec F S1x512x65536 .f32 := broadcastInDim S1x512x65536 ![] bcast_S_S1x512x65536 main_cst
  let main_v2 : IVec S1x512x65536 1 := cmpf .olt main_v0 main_v1
  let main_c : IVec S_ 1 := constantI S_ 1 1#1
  let main_v3 : IVec S_ 1 := (fun x v => Host.reduce IntOp.andi x v reducesTo_S1x512x65536_S_d0_1_2 h_S_) main_v2 main_c
  let main_v4 : FVec F S1x512x65536 .f32 := Host.absf main_arg1
  let main_cst_0 : FVec F S_ .f32 := constant S_ .f32 0x7F800000#32
  let main_v5 : FVec F S1x512x65536 .f32 := broadcastInDim S1x512x65536 ![] bcast_S_S1x512x65536 main_cst_0
  let main_v6 : IVec S1x512x65536 1 := cmpf .olt main_v4 main_v5
  let main_c_1 : IVec S_ 1 := constantI S_ 1 1#1
  let main_v7 : IVec S_ 1 := (fun x v => Host.reduce IntOp.andi x v reducesTo_S1x512x65536_S_d0_1_2 h_S_) main_v6 main_c_1
  let main_v8 : IVec S_ 1 := andi main_v3 main_v7
  let main_v9 : FVec F S1x512x65536 .f32 := Host.absf main_arg2
  let main_cst_2 : FVec F S_ .f32 := constant S_ .f32 0x7F800000#32
  let main_v10 : FVec F S1x512x65536 .f32 := broadcastInDim S1x512x65536 ![] bcast_S_S1x512x65536 main_cst_2
  let main_v11 : IVec S1x512x65536 1 := cmpf .olt main_v9 main_v10
  let main_c_3 : IVec S_ 1 := constantI S_ 1 1#1
  let main_v12 : IVec S_ 1 := (fun x v => Host.reduce IntOp.andi x v reducesTo_S1x512x65536_S_d0_1_2 h_S_) main_v11 main_c_3
  let main_v13 : IVec S_ 1 := andi main_v8 main_v12
  let main_v14 : FVec F S1x512x65536 .f32 := Host.absf main_arg3
  let main_cst_4 : FVec F S_ .f32 := constant S_ .f32 0x7F800000#32
  let main_v15 : FVec F S1x512x65536 .f32 := broadcastInDim S1x512x65536 ![] bcast_S_S1x512x65536 main_cst_4
  let main_v16 : IVec S1x512x65536 1 := cmpf .olt main_v14 main_v15
  fn_part1 (F := F) main_arg4 main_arg5 main_arg6 main_arg7 main_v13 main_v16
-- ==== Kernel.lean ====
abbrev S1x512x65536 : Shape := ⟨3, ![1, 512, 65536]⟩
abbrev S2x512x512 : Shape := ⟨3, ![2, 512, 512]⟩
abbrev S1x512x256 : Shape := ⟨3, ![1, 512, 256]⟩
abbrev S1x512x512 : Shape := ⟨3, ![1, 512, 512]⟩
abbrev S512x512 : Shape := ⟨2, ![512, 512]⟩
abbrev S512x256 : Shape := ⟨2, ![512, 256]⟩
abbrev S_ : Shape := ⟨0, ![]⟩
abbrev S1 : Shape := ⟨1, ![1]⟩
abbrev S1x1 : Shape := ⟨2, ![1, 1]⟩
abbrev S4x1 : Shape := ⟨2, ![4, 1]⟩

abbrev nBuf : Space → Nat
  | .hbm => 83
  | .vmem => 32
  | .smem => 0
  | _ => 0

abbrev bufTy : (tb : Table) → Fin (tcTables nBuf tb) → BufTy
  | .hbm, ⟨0, _⟩ => ⟨S1x512x65536, .f32⟩
  | .hbm, ⟨1, _⟩ => ⟨S1x512x65536, .f32⟩
  | .hbm, ⟨2, _⟩ => ⟨S1x512x65536, .f32⟩
  | .hbm, ⟨3, _⟩ => ⟨S1x512x65536, .f32⟩
  | .hbm, ⟨4, _⟩ => ⟨S1x512x65536, .f32⟩
  | .hbm, ⟨5, _⟩ => ⟨S1x512x65536, .f32⟩
  | .hbm, ⟨6, _⟩ => ⟨S1x512x65536, .f32⟩
  | .hbm, ⟨7, _⟩ => ⟨S1x512x65536, .f32⟩
  | .hbm, ⟨8, _⟩ => ⟨S2x512x512, .f32⟩
  | .hbm, ⟨9, _⟩ => ⟨S2x512x512, .f32⟩
  | .hbm, ⟨10, _⟩ => ⟨S2x512x512, .f32⟩
  | .hbm, ⟨11, _⟩ => ⟨S2x512x512, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S2x512x512, .f32⟩
  | .hbm, ⟨16, _⟩ => ⟨S_, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S512x512, .f32⟩
  | .hbm, ⟨44, _⟩ => ⟨S512x512, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S512x512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S512x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S512x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S1x1, .f32⟩
  | .hbm, ⟨80, _⟩ => ⟨S4x1, .f32⟩
  | .hbm, ⟨81, _⟩ => ⟨S_, .f32⟩
  | .hbm, ⟨82, _⟩ => ⟨S1, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | _, _ => ⟨S1x512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_cst_2 : Ref sig .tc := ⟨.hbm, 22, rfl⟩
abbrev main_v4 : Ref sig .tc := ⟨.hbm, 23, rfl⟩
abbrev main_cst_3 : Ref sig .tc := ⟨.hbm, 24, rfl⟩
abbrev main_v5 : Ref sig .tc := ⟨.hbm, 25, rfl⟩
abbrev main_cst_4 : Ref sig .tc := ⟨.hbm, 26, rfl⟩
abbrev main_v6 : Ref sig .tc := ⟨.hbm, 27, rfl⟩
abbrev main_cst_5 : Ref sig .tc := ⟨.hbm, 28, rfl⟩
abbrev main_v7 : Ref sig .tc := ⟨.hbm, 29, rfl⟩
abbrev main_cst_6 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_7 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_8 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_9 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_10 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_11 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_12 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_15 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  reducesTo_S2x512x512_S512x512_d0 : S2x512x512.ReducesTo [0] S512x512
  h_S_ : 0 < S_.numel
  reducesTo_S512x512_S_d0_1 : S512x512.ReducesTo [0, 1] S_
  bcast_S_S1 : S_.BroadcastsInDim S1 (![] : Fin 0 → Fin S1.rank)
  bcast_S1_S1x1_1 : S1.BroadcastsInDim S1x1 (![1] : Fin 1 → Fin S1x1.rank)
  concatenates_S1x1_S1x1_S1x1_S1x1_S4x1_d0 : Shape.Concatenates [S1x1, S1x1, S1x1, S1x1] S4x1 0
  reducesTo_S4x1_S1_d0 : S4x1.ReducesTo [0] S1
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S1x512x65536.size a
  hwx0_0 : ∀ i : grid0.Coords, EltTy.bits .f32 = 32 ∨ (Rect.block (s := S1x512x65536) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S1x512x65536.size a
  hwx0_1 : ∀ i : grid0.Coords, EltTy.bits .f32 = 32 ∨ (Rect.block (s := S1x512x65536) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S1x512x65536.size a
  hwx0_2 : ∀ i : grid0.Coords, EltTy.bits .f32 = 32 ∨ (Rect.block (s := S1x512x65536) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S1x512x65536.size a
  hwx0_3 : ∀ i : grid0.Coords, EltTy.bits .f32 = 32 ∨ (Rect.block (s := S1x512x65536) S1x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S1x512x65536.size a
  hwx0_4 : ∀ i : grid0.Coords, EltTy.bits .f32 = 32 ∨ (Rect.block (s := S1x512x65536) S1x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S1x512x65536.size a
  hwx0_5 : ∀ i : grid0.Coords, EltTy.bits .f32 = 32 ∨ (Rect.block (s := S1x512x65536) S1x512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S1x512x65536.size a
  hwx0_6 : ∀ i : grid0.Coords, EltTy.bits .f32 = 32 ∨ (Rect.block (s := S1x512x65536) S1x512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S1x512x65536.size a
  hwx0_7 : ∀ i : grid0.Coords, EltTy.bits .f32 = 32 ∨ (Rect.block (s := S1x512x65536) S1x512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S2x512x512.size a
  hwx0_8 : ∀ i : grid0.Coords, EltTy.bits .f32 = 32 ∨ (Rect.block (s := S2x512x512) S1x512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S2x512x512.size a
  hwx0_9 : ∀ i : grid0.Coords, EltTy.bits .f32 = 32 ∨ (Rect.block (s := S2x512x512) S1x512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S2x512x512.size a
  hwx0_10 : ∀ i : grid0.Coords, EltTy.bits .f32 = 32 ∨ (Rect.block (s := S2x512x512) S1x512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x512.size a ≤ S2x512x512.size a
  hwx0_11 : ∀ i : grid0.Coords, EltTy.bits .f32 = 32 ∨ (Rect.block (s := S2x512x512) S1x512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x512.size a ≤ S2x512x512.size a
  hwx0_12 : ∀ i : grid0.Coords, EltTy.bits .f32 = 32 ∨ (Rect.block (s := S2x512x512) S1x512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x512.size a ≤ S2x512x512.size a
  hwx0_13 : ∀ i : grid0.Coords, EltTy.bits .f32 = 32 ∨ (Rect.block (s := S2x512x512) S1x512x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512x512.size a ≤ S2x512x512.size a
  hwx0_14 : ∀ i : grid0.Coords, EltTy.bits .f32 = 32 ∨ (Rect.block (s := S2x512x512) S1x512x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x512x512.size a ≤ S2x512x512.size a
  hwx0_15 : ∀ i : grid0.Coords, EltTy.bits .f32 = 32 ∨ (Rect.block (s := S2x512x512) S1x512x512.size (cc0_transform_15 i) (hinb0_15 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S1x512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S1x512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_4) S1x512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_5) S1x512x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_6) S1x512x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_7) S1x512x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1x512x65536 : Shape := ⟨3, ![1, 512, 65536]⟩
abbrev S512x65536 : Shape := ⟨2, ![512, 65536]⟩
abbrev S65536x512 : Shape := ⟨2, ![65536, 512]⟩
abbrev S512x512 : Shape := ⟨2, ![512, 512]⟩
abbrev S_ : Shape := ⟨0, ![]⟩
abbrev S1 : Shape := ⟨1, ![1]⟩
abbrev S1x1 : Shape := ⟨2, ![1, 1]⟩
abbrev S4x1 : Shape := ⟨2, ![4, 1]⟩

abbrev nBuf : Space → Nat
  | .hbm => 83
  | .vmem => 0
  | .smem => 0
  | _ => 0

abbrev bufTy : (tb : Table) → Fin (tcTables nBuf tb) → BufTy
  | .hbm, ⟨0, _⟩ => ⟨S1x512x65536, .f32⟩
  | .hbm, ⟨1, _⟩ => ⟨S1x512x65536, .f32⟩
  | .hbm, ⟨2, _⟩ => ⟨S1x512x65536, .f32⟩
  | .hbm, ⟨3, _⟩ => ⟨S1x512x65536, .f32⟩
  | .hbm, ⟨4, _⟩ => ⟨S1x512x65536, .f32⟩
  | .hbm, ⟨5, _⟩ => ⟨S1x512x65536, .f32⟩
  | .hbm, ⟨6, _⟩ => ⟨S1x512x65536, .f32⟩
  | .hbm, ⟨7, _⟩ => ⟨S1x512x65536, .f32⟩
  | .hbm, ⟨8, _⟩ => ⟨S512x65536, .f32⟩
  | .hbm, ⟨9, _⟩ => ⟨S65536x512, .f32⟩
  | .hbm, ⟨10, _⟩ => ⟨S512x512, .f32⟩
  | .hbm, ⟨11, _⟩ => ⟨S512x65536, .f32⟩
  | .hbm, ⟨12, _⟩ => ⟨S65536x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S512x65536, .f32⟩
  | .hbm, ⟨26, _⟩ => ⟨S65536x512, .f32⟩
  | .hbm, ⟨27, _⟩ => ⟨S512x512, .f32⟩
  | .hbm, ⟨28, _⟩ => ⟨S512x65536, .f32⟩
  | .hbm, ⟨29, _⟩ => ⟨S65536x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S512x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S512x65536, .f32⟩
  | .hbm, ⟨43, _⟩ => ⟨S65536x512, .f32⟩
  | .hbm, ⟨44, _⟩ => ⟨S512x512, .f32⟩
  | .hbm, ⟨45, _⟩ => ⟨S512x65536, .f32⟩
  | .hbm, ⟨46, _⟩ => ⟨S65536x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1, .f32⟩
  | .hbm, ⟨59, _⟩ => ⟨S512x65536, .f32⟩
  | .hbm, ⟨60, _⟩ => ⟨S65536x512, .f32⟩
  | .hbm, ⟨61, _⟩ => ⟨S512x512, .f32⟩
  | .hbm, ⟨62, _⟩ => ⟨S512x65536, .f32⟩
  | .hbm, ⟨63, _⟩ => ⟨S65536x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S512x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S1x1, .f32⟩
  | .hbm, ⟨80, _⟩ => ⟨S4x1, .f32⟩
  | .hbm, ⟨81, _⟩ => ⟨S_, .f32⟩
  | .hbm, ⟨82, _⟩ => ⟨S1, .f32⟩
  | _, _ => ⟨S1x512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v7 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_v18 : Ref sig .tc := ⟨.hbm, 35, rfl⟩
abbrev main_call3_v0 : Ref sig .tc := ⟨.hbm, 36, rfl⟩
abbrev main_call3_cst : Ref sig .tc := ⟨.hbm, 37, rfl⟩
abbrev main_call3_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call4_v0 : Ref sig .tc := ⟨.hbm, 49, rfl⟩
abbrev main_call4_cst : Ref sig .tc := ⟨.hbm, 50, rfl⟩
abbrev main_call4_v1 : Ref sig .tc := ⟨.hbm, 51, rfl⟩
abbrev main_v29 : Ref sig .tc := ⟨.hbm, 52, rfl⟩
abbrev main_call5_v0 : Ref sig .tc := ⟨.hbm, 53, rfl⟩
abbrev main_call5_cst : Ref sig .tc := ⟨.hbm, 54, rfl⟩
abbrev main_call5_v1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call6_v0 : Ref sig .tc := ⟨.hbm, 66, rfl⟩
abbrev main_call6_cst : Ref sig .tc := ⟨.hbm, 67, rfl⟩
abbrev main_call6_v1 : Ref sig .tc := ⟨.hbm, 68, rfl⟩
abbrev main_v40 : Ref sig .tc := ⟨.hbm, 69, rfl⟩
abbrev main_call7_v0 : Ref sig .tc := ⟨.hbm, 70, rfl⟩
abbrev main_call7_cst : Ref sig .tc := ⟨.hbm, 71, rfl⟩
abbrev main_call7_v1 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst : Ref sig .tc := ⟨.hbm, 81, rfl⟩
abbrev main_v49 : Ref sig .tc := ⟨.hbm, 82, rfl⟩

abbrev nD : Nat := 1
abbrev τ : Topo := Topo.v7x

variable {F : FTy → Type} [FloatOps F]

class Facts₀ : Prop where
  shapeCasts_S1x512x65536_S512x65536 : S1x512x65536.ShapeCasts S512x65536
  transposes_S512x65536_S65536x512_1_0 : S512x65536.Transposes [1, 0] S65536x512
  reducesTo_S512x512_S_d0_1 : S512x512.ReducesTo [0, 1] S_
  h_S_ : 0 < S_.numel
  bcast_S_S1 : S_.BroadcastsInDim S1 (![] : Fin 0 → Fin S1.rank)
  bcast_S1_S1x1_1 : S1.BroadcastsInDim S1x1 (![1] : Fin 1 → Fin S1x1.rank)
  concatenates_S1x1_S1x1_S1x1_S1x1_S4x1_d0 : Shape.Concatenates [S1x1, S1x1, S1x1, S1x1] S4x1 0
  reducesTo_S4x1_S1_d0 : S4x1.ReducesTo [0] S1
  dot_S512x65536_S65536x512_S512x512_1_0_0_1_n_n_wf : DotDims.WF S512x65536 S65536x512 S512x512 [1] [0] [0] [1] [] []

variable [Facts₀]

def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf

class Facts : Prop extends Facts₀ where

variable [Facts]
-- ==== Proof.KBase.lean ====
/-
  The launch side of the Gram kernel's run, shared by its two control cases: @main is the region followed by the
  host lines that add the two halves of each Gram matrix and form the four ratios of Frobenius norms; the
  buffers as the region finds them; each input window's block at a grid point; the one branch of the body, on
  the second grid coordinate being zero, decided over the grid; and how the frame claim follows from a run that
  names every array after the region.
-/
import proofs.«133432_j18141941858429_2_alg».proof.Proof.Gen.Kernel.Launch
import proofs.«133432_j18141941858429_2_alg».proof.Proof.Gen.Kernel.Skeleton
import proofs.«133432_j18141941858429_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered: as launched (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- An operation whose one written buffer is no array of the pipeline writes no array of the pipeline. -/
theorem keeps_of {op : HloOp τ sig (Elt F)} {y : Ref sig .tc} (hw : op.writes = {Proc.devRef .tc y})
    (hy : ∀ w, Pipeline.arrRef spec0 w ≠ y) : ∀ w, Proc.devRef .tc (Pipeline.arrRef spec0 w) ∉ op.writes := fun w => by
  rw [hw, Finset.mem_singleton]; exact StableHlo.devRef_ne_of_ne (hy w)

/-- Each host line after the region writes its own result buffer, which is none of the sixteen arrays. -/
theorem hostOps1_keeps : (hostOps1 : List (HloOp τ sig (Elt F))).Forall fun op =>
    ∀ w, Proc.devRef .tc (Pipeline.arrRef spec0 w) ∉ op.writes :=
  ⟨keeps_of (y := main_cst) rfl (by decide),
   keeps_of (y := main_v1) rfl (by decide),
   keeps_of (y := main_cst_0) rfl (by decide),
   keeps_of (y := main_v2) rfl (by decide),
   keeps_of (y := main_cst_1) rfl (by decide),
   keeps_of (y := main_v3) rfl (by decide),
   keeps_of (y := main_cst_2) rfl (by decide),
   keeps_of (y := main_v4) rfl (by decide),
   keeps_of (y := main_cst_3) rfl (by decide),
   keeps_of (y := main_v5) rfl (by decide),
   keeps_of (y := main_cst_4) rfl (by decide),
   keeps_of (y := main_v6) rfl (by decide),
   keeps_of (y := main_cst_5) rfl (by decide),
   keeps_of (y := main_v7) rfl (by decide),
   keeps_of (y := main_cst_6) rfl (by decide),
   keeps_of (y := main_v8) rfl (by decide),
   keeps_of (y := main_v9) rfl (by decide),
   keeps_of (y := main_v10) rfl (by decide),
   keeps_of (y := main_cst_7) rfl (by decide),
   keeps_of (y := main_v11) rfl (by decide),
   keeps_of (y := main_v12) rfl (by decide),
   keeps_of (y := main_v13) rfl (by decide),
   keeps_of (y := main_cst_8) rfl (by decide),
   keeps_of (y := main_v14) rfl (by decide),
   keeps_of (y := main_v15) rfl (by decide),
   keeps_of (y := main_v16) rfl (by decide),
   keeps_of (y := main_v17) rfl (by decide),
   keeps_of (y := main_v18) rfl (by decide),
   keeps_of (y := main_v19) rfl (by decide),
   keeps_of (y := main_cst_9) rfl (by decide),
   keeps_of (y := main_v20) rfl (by decide),
   keeps_of (y := main_v21) rfl (by decide),
   keeps_of (y := main_v22) rfl (by decide),
   keeps_of (y := main_cst_10) rfl (by decide),
   keeps_of (y := main_v23) rfl (by decide),
   keeps_of (y := main_v24) rfl (by decide),
   keeps_of (y := main_v25) rfl (by decide),
   keeps_of (y := main_v26) rfl (by decide),
   keeps_of (y := main_v27) rfl (by decide),
   keeps_of (y := main_v28) rfl (by decide),
   keeps_of (y := main_cst_11) rfl (by decide),
   keeps_of (y := main_v29) rfl (by decide),
   keeps_of (y := main_v30) rfl (by decide),
   keeps_of (y := main_v31) rfl (by decide),
   keeps_of (y := main_cst_12) rfl (by decide),
   keeps_of (y := main_v32) rfl (by decide),
   keeps_of (y := main_v33) rfl (by decide),
   keeps_of (y := main_v34) rfl (by decide),
   keeps_of (y := main_v35) rfl (by decide),
   keeps_of (y := main_v36) rfl (by decide),
   keeps_of (y := main_v37) rfl (by decide),
   keeps_of (y := main_cst_13) rfl (by decide),
   keeps_of (y := main_v38) rfl (by decide),
   keeps_of (y := main_v39) rfl (by decide),
   keeps_of (y := main_v40) rfl (by decide),
   keeps_of (y := main_cst_14) rfl (by decide),
   keeps_of (y := main_v41) rfl (by decide),
   keeps_of (y := main_v42) rfl (by decide),
   keeps_of (y := main_v43) rfl (by decide),
   keeps_of (y := main_v44) rfl (by decide),
   keeps_of (y := main_v45) rfl (by decide),
   keeps_of (y := main_v46) rfl (by decide),
   keeps_of (y := main_v47) rfl (by decide),
   keeps_of (y := main_v48) rfl (by decide),
   keeps_of (y := main_v49) rfl (by decide),
   keeps_of (y := main_cst_15) rfl (by decide),
   keeps_of (y := main_v50) rfl (by decide)⟩

set_option maxHeartbeats 8000000 in
/-- @main reduces to the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that names every array after the region
    leaves the eight argument arrays as launched: each is an input window's array, never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).1 3).trans (((dats 0 c).arrAt_in 3 rfl _).trans ((hA c 3).trans (V_main_arg3 m c))),
    ((h c).1 4).trans (((dats 0 c).arrAt_in 4 rfl _).trans ((hA c 4).trans (V_main_arg4 m c))),
    ((h c).1 5).trans (((dats 0 c).arrAt_in 5 rfl _).trans ((hA c 5).trans (V_main_arg5 m c))),
    ((h c).1 6).trans (((dats 0 c).arrAt_in 6 rfl _).trans ((hA c 6).trans (V_main_arg6 m c))),
    ((h c).1 7).trans (((dats 0 c).arrAt_in 7 rfl _).trans ((hA c 7).trans (V_main_arg7 m c)))⟩) h

/-! ## The body's branch -/

/-- The condition of the body's one `scf.if`: the second grid coordinate is zero (the first tile of a half). -/
abbrev cond0_0 (i : grid0.Coords) : Prop := (Scalar.cmpi .ne (Scalar.extui (Scalar.cmpi .eq (BitVec.ofNat 32 (i 1).val) 0#32)) 0#32) = 1#1
/-- It holds at the points ≡ 0 (mod 128): the first point of each half. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs at a point -/

/-- One staging buffer of an output window, through which its contents are stated. -/
abbrev VO : View sig .tc .vmem S1x512x512 .f32 := (Memref.whole cc0_stg8_0 : Memref sig .tc .vmem S1x512x512 .f32).view
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x512 .f32 := win0_15.stage (cfg0.slots t 15)
abbrev hs0_15 (t : Fin cfg0.N) : (ms0_15 t).IsWhole := hstage0_15 ((cfg0.slots t 15).cast nbuf0_15)

end Cert.Kernel.Hand

end
-- ==== Proof.KRunA.lean ====
/-
  The kernel body run as a whole at the first tile of a half (the second grid coordinate is zero): every output block is
  reset to zero, then each receives the Gram product of its input tile added to what it holds. The stores
  each output buffer ends with are found by the run itself; what they amount to is read off them afterwards.
-/
import proofs.«133432_j18141941858429_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each output's staging memref (last first) when the branch is taken, with the proof
    that on whole staging memrefs — the inputs' at their tiles, the outputs' at anything — the body runs
    to the continuation holding the inputs' as they were and each output's buffer with those stores written. -/
noncomputable def kernelRun0_A (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) :
    Σ' (L8 : List (View.Piece (Elt F) S1x512x512 .f32)), Σ' (L9 : List (View.Piece (Elt F) S1x512x512 .f32)), Σ' (L10 : List (View.Piece (Elt F) S1x512x512 .f32)), Σ' (L11 : List (View.Piece (Elt F) S1x512x512 .f32)), Σ' (L12 : List (View.Piece (Elt F) S1x512x512 .f32)), Σ' (L13 : List (View.Piece (Elt F) S1x512x512 .f32)), Σ' (L14 : List (View.Piece (Elt F) S1x512x512 .f32)), { L15 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15)) -∗ K ⟨⟩))
          ⊢ wp frame (wpE (defs₀ (F := F)) Variants.none c none) E (cc0__gram_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0__gram_kernel_eq_skeleton]; unfold cc0__gram_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Kernel.Hand

end
-- ==== Proof.KRunB.lean ====
/-
  The kernel body run as a whole at a later tile of a half: each output block receives the Gram product of its input
  tile added to what the point before left in it. The stores
  each output buffer ends with are found by the run itself; what they amount to is read off them afterwards.
-/
import proofs.«133432_j18141941858429_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each output's staging memref (last first) when the branch is not taken, with the proof
    that on whole staging memrefs — the inputs' at their tiles, the outputs' at what the point before left — the body runs
    to the continuation holding the inputs' as they were and each output's buffer with those stores written. -/
noncomputable def kernelRun0_B (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) :
    Σ' (L8 : List (View.Piece (Elt F) S1x512x512 .f32)), Σ' (L9 : List (View.Piece (Elt F) S1x512x512 .f32)), Σ' (L10 : List (View.Piece (Elt F) S1x512x512 .f32)), Σ' (L11 : List (View.Piece (Elt F) S1x512x512 .f32)), Σ' (L12 : List (View.Piece (Elt F) S1x512x512 .f32)), Σ' (L13 : List (View.Piece (Elt F) S1x512x512 .f32)), Σ' (L14 : List (View.Piece (Elt F) S1x512x512 .f32)), { L15 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ owns (c : Thread nD τ) arg12 fullShare xo10 ∗ owns (c : Thread nD τ) arg13 fullShare xo11 ∗ owns (c : Thread nD τ) arg14 fullShare xo12 ∗ owns (c : Thread nD τ) arg15 fullShare xo13 ∗ owns (c : Thread nD τ) arg16 fullShare xo14 ∗ owns (c : Thread nD τ) arg17 fullShare xo15
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15)) -∗ K ⟨⟩))
          ⊢ wp frame (wpE (defs₀ (F := F)) Variants.none c none) E (cc0__gram_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0__gram_kernel_eq_skeleton]; unfold cc0__gram_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Kernel.Hand

end
-- ==== Proof.KFrame.lean ====
/-
  The Gram kernel's run over its grid. The grid is two halves of 128 tiles; the eight output blocks of a half are
  accumulators: the first tile of the half resets them and adds its products, every later tile adds its
  products to what the tile before left, and the block is written back after the last tile of the half. This
  module states what the outputs hold after every point by recursion on the point, shows that the body does
  that at every point, and runs @main: the region, then the host lines.
-/
import proofs.«133432_j18141941858429_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores amount to -/

theorem cover0_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 S1x512x512.size (by sl_kernel_rfl) y

/-- What the first tile of a half leaves in output 0's staging buffer: its stores read back. -/
def out0_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1)

theorem cover0_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).1 S1x512x512.size (by sl_kernel_rfl) y

/-- What a later tile leaves in output 0's staging buffer: its stores read back. -/
def out0_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).1)

theorem cover0_A_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1 S1x512x512.size (by sl_kernel_rfl) y

/-- What the first tile of a half leaves in output 1's staging buffer: its stores read back. -/
def out0_A_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1)

theorem cover0_B_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.1 S1x512x512.size (by sl_kernel_rfl) y

/-- What a later tile leaves in output 1's staging buffer: its stores read back. -/
def out0_B_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.1)

theorem cover0_A_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1 S1x512x512.size (by sl_kernel_rfl) y

/-- What the first tile of a half leaves in output 2's staging buffer: its stores read back. -/
def out0_A_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1)

theorem cover0_B_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.1 S1x512x512.size (by sl_kernel_rfl) y

/-- What a later tile leaves in output 2's staging buffer: its stores read back. -/
def out0_B_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.1)

theorem cover0_A_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1 S1x512x512.size (by sl_kernel_rfl) y

/-- What the first tile of a half leaves in output 3's staging buffer: its stores read back. -/
def out0_A_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1)

theorem cover0_B_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.1 S1x512x512.size (by sl_kernel_rfl) y

/-- What a later tile leaves in output 3's staging buffer: its stores read back. -/
def out0_B_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.1)

theorem cover0_A_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1 S1x512x512.size (by sl_kernel_rfl) y

/-- What the first tile of a half leaves in output 4's staging buffer: its stores read back. -/
def out0_A_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1)

theorem cover0_B_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.1 S1x512x512.size (by sl_kernel_rfl) y

/-- What a later tile leaves in output 4's staging buffer: its stores read back. -/
def out0_B_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.1)

theorem cover0_A_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1 S1x512x512.size (by sl_kernel_rfl) y

/-- What the first tile of a half leaves in output 5's staging buffer: its stores read back. -/
def out0_A_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1)

theorem cover0_B_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.1 S1x512x512.size (by sl_kernel_rfl) y

/-- What a later tile leaves in output 5's staging buffer: its stores read back. -/
def out0_B_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.1)

theorem cover0_A_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1 S1x512x512.size (by sl_kernel_rfl) y

/-- What the first tile of a half leaves in output 6's staging buffer: its stores read back. -/
def out0_A_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1)

theorem cover0_B_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.1 S1x512x512.size (by sl_kernel_rfl) y

/-- What a later tile leaves in output 6's staging buffer: its stores read back. -/
def out0_B_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.1)

theorem cover0_A_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1 S1x512x512.size (by sl_kernel_rfl) y

/-- What the first tile of a half leaves in output 7's staging buffer: its stores read back. -/
def out0_A_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1)

theorem cover0_B_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.2.1 S1x512x512.size (by sl_kernel_rfl) y

/-- What a later tile leaves in output 7's staging buffer: its stores read back. -/
def out0_B_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.2.1)

/-! ## What the outputs hold after each point -/

/-- The eight outputs after the first tile of a half. -/
def outA (c : Dev nD) (t : Fin cfg0.N) (h0 : t.val % 128 = 0) : Fin 8 → Vec F S1x512x512 .f32 := fun j => match j with
  | ⟨0, _⟩ => out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨1, _⟩ => out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨2, _⟩ => out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨3, _⟩ => out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨4, _⟩ => out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨5, _⟩ => out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨6, _⟩ => out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨7, _⟩ => out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)

/-- The eight outputs after a later tile, over what the tile before left. -/
def outB (c : Dev nD) (t : Fin cfg0.N) (h0 : ¬t.val % 128 = 0) (prev : Fin 8 → Vec F S1x512x512 .f32) : Fin 8 → Vec F S1x512x512 .f32 := fun j => match j with
  | ⟨0, _⟩ => out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨1, _⟩ => out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨2, _⟩ => out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨3, _⟩ => out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨4, _⟩ => out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨5, _⟩ => out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨6, _⟩ => out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨7, _⟩ => out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)

/-- The accumulation: what the outputs' staging buffers hold after the body at position `n`. -/
def outsAt0 (c : Dev nD) : (n : ℕ) → n < cfg0.N → Fin 8 → Vec F S1x512x512 .f32
  | 0, hn => outA m c ⟨0, hn⟩ (Nat.zero_mod _)
  | n + 1, hn =>
    if h0 : (n + 1) % 128 = 0 then outA m c ⟨n + 1, hn⟩ h0
    else outB m c ⟨n + 1, hn⟩ h0 (outsAt0 c n (Nat.lt_of_succ_lt hn))

theorem outsAt0_A (c : Dev nD) (t : Fin cfg0.N) (h0 : t.val % 128 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 128 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its tile and each
    output's at the accumulation; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt0 m c t.val t.isLt 0
    | ⟨9, _⟩ => outsAt0 m c t.val t.isLt 1
    | ⟨10, _⟩ => outsAt0 m c t.val t.isLt 2
    | ⟨11, _⟩ => outsAt0 m c t.val t.isLt 3
    | ⟨12, _⟩ => outsAt0 m c t.val t.isLt 4
    | ⟨13, _⟩ => outsAt0 m c t.val t.isLt 5
    | ⟨14, _⟩ => outsAt0 m c t.val t.isLt 6
    | ⟨15, _⟩ => outsAt0 m c t.val t.isLt 7
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt0 m c t.val t.isLt 0 := by dsimp only [dats]
theorem after0_9 (c : Dev nD) (t : Fin cfg0.N) : (dats m 0 c).after 9 t = outsAt0 m c t.val t.isLt 1 := by dsimp only [dats]
theorem after0_10 (c : Dev nD) (t : Fin cfg0.N) : (dats m 0 c).after 10 t = outsAt0 m c t.val t.isLt 2 := by dsimp only [dats]
theorem after0_11 (c : Dev nD) (t : Fin cfg0.N) : (dats m 0 c).after 11 t = outsAt0 m c t.val t.isLt 3 := by dsimp only [dats]
theorem after0_12 (c : Dev nD) (t : Fin cfg0.N) : (dats m 0 c).after 12 t = outsAt0 m c t.val t.isLt 4 := by dsimp only [dats]
theorem after0_13 (c : Dev nD) (t : Fin cfg0.N) : (dats m 0 c).after 13 t = outsAt0 m c t.val t.isLt 5 := by dsimp only [dats]
theorem after0_14 (c : Dev nD) (t : Fin cfg0.N) : (dats m 0 c).after 14 t = outsAt0 m c t.val t.isLt 6 := by dsimp only [dats]
theorem after0_15 (c : Dev nD) (t : Fin cfg0.N) : (dats m 0 c).after 15 t = outsAt0 m c t.val t.isLt 7 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later tile output 0's staging buffer holds what the body left at the tile before: the buffer is
    not written back between two tiles of one half. -/
theorem before0_8_B (c : Dev nD) (t : Fin cfg0.N) (h0 : ¬t.val % 128 = 0) (d) :
    (dats m 0 c).before 8 t d = outsAt0 m c (t.val - 1) (Nat.lt_of_le_of_lt (Nat.sub_le _ _) t.isLt) 0 := by
  have hN : t.val < 256 := lt_of_lt_of_eq t.isLt (show cfg0.N = 256 from N_0)
  rw [Dat.before_out_kept _ 8 rfl t (by omega) (Bool.eq_false_iff.mpr fun h => by have := (flush0_8 _).mp h; dsimp only at this; omega)
    (fun _ => rfl) (fun _ _ => rfl)]
  dsimp only [dats]
/-- At a later tile output 1's staging buffer holds what the body left at the tile before: the buffer is
    not written back between two tiles of one half. -/
theorem before0_9_B (c : Dev nD) (t : Fin cfg0.N) (h0 : ¬t.val % 128 = 0) (d) :
    (dats m 0 c).before 9 t d = outsAt0 m c (t.val - 1) (Nat.lt_of_le_of_lt (Nat.sub_le _ _) t.isLt) 1 := by
  have hN : t.val < 256 := lt_of_lt_of_eq t.isLt (show cfg0.N = 256 from N_0)
  rw [Dat.before_out_kept _ 9 rfl t (by omega) (Bool.eq_false_iff.mpr fun h => by have := (flush0_9 _).mp h; dsimp only at this; omega)
    (fun _ => rfl) (fun _ _ => rfl)]
  dsimp only [dats]
/-- At a later tile output 2's staging buffer holds what the body left at the tile before: the buffer is
    not written back between two tiles of one half. -/
theorem before0_10_B (c : Dev nD) (t : Fin cfg0.N) (h0 : ¬t.val % 128 = 0) (d) :
    (dats m 0 c).before 10 t d = outsAt0 m c (t.val - 1) (Nat.lt_of_le_of_lt (Nat.sub_le _ _) t.isLt) 2 := by
  have hN : t.val < 256 := lt_of_lt_of_eq t.isLt (show cfg0.N = 256 from N_0)
  rw [Dat.before_out_kept _ 10 rfl t (by omega) (Bool.eq_false_iff.mpr fun h => by have := (flush0_10 _).mp h; dsimp only at this; omega)
    (fun _ => rfl) (fun _ _ => rfl)]
  dsimp only [dats]
/-- At a later tile output 3's staging buffer holds what the body left at the tile before: the buffer is
    not written back between two tiles of one half. -/
theorem before0_11_B (c : Dev nD) (t : Fin cfg0.N) (h0 : ¬t.val % 128 = 0) (d) :
    (dats m 0 c).before 11 t d = outsAt0 m c (t.val - 1) (Nat.lt_of_le_of_lt (Nat.sub_le _ _) t.isLt) 3 := by
  have hN : t.val < 256 := lt_of_lt_of_eq t.isLt (show cfg0.N = 256 from N_0)
  rw [Dat.before_out_kept _ 11 rfl t (by omega) (Bool.eq_false_iff.mpr fun h => by have := (flush0_11 _).mp h; dsimp only at this; omega)
    (fun _ => rfl) (fun _ _ => rfl)]
  dsimp only [dats]
/-- At a later tile output 4's staging buffer holds what the body left at the tile before: the buffer is
    not written back between two tiles of one half. -/
theorem before0_12_B (c : Dev nD) (t : Fin cfg0.N) (h0 : ¬t.val % 128 = 0) (d) :
    (dats m 0 c).before 12 t d = outsAt0 m c (t.val - 1) (Nat.lt_of_le_of_lt (Nat.sub_le _ _) t.isLt) 4 := by
  have hN : t.val < 256 := lt_of_lt_of_eq t.isLt (show cfg0.N = 256 from N_0)
  rw [Dat.before_out_kept _ 12 rfl t (by omega) (Bool.eq_false_iff.mpr fun h => by have := (flush0_12 _).mp h; dsimp only at this; omega)
    (fun _ => rfl) (fun _ _ => rfl)]
  dsimp only [dats]
/-- At a later tile output 5's staging buffer holds what the body left at the tile before: the buffer is
    not written back between two tiles of one half. -/
theorem before0_13_B (c : Dev nD) (t : Fin cfg0.N) (h0 : ¬t.val % 128 = 0) (d) :
    (dats m 0 c).before 13 t d = outsAt0 m c (t.val - 1) (Nat.lt_of_le_of_lt (Nat.sub_le _ _) t.isLt) 5 := by
  have hN : t.val < 256 := lt_of_lt_of_eq t.isLt (show cfg0.N = 256 from N_0)
  rw [Dat.before_out_kept _ 13 rfl t (by omega) (Bool.eq_false_iff.mpr fun h => by have := (flush0_13 _).mp h; dsimp only at this; omega)
    (fun _ => rfl) (fun _ _ => rfl)]
  dsimp only [dats]
/-- At a later tile output 6's staging buffer holds what the body left at the tile before: the buffer is
    not written back between two tiles of one half. -/
theorem before0_14_B (c : Dev nD) (t : Fin cfg0.N) (h0 : ¬t.val % 128 = 0) (d) :
    (dats m 0 c).before 14 t d = outsAt0 m c (t.val - 1) (Nat.lt_of_le_of_lt (Nat.sub_le _ _) t.isLt) 6 := by
  have hN : t.val < 256 := lt_of_lt_of_eq t.isLt (show cfg0.N = 256 from N_0)
  rw [Dat.before_out_kept _ 14 rfl t (by omega) (Bool.eq_false_iff.mpr fun h => by have := (flush0_14 _).mp h; dsimp only at this; omega)
    (fun _ => rfl) (fun _ _ => rfl)]
  dsimp only [dats]
/-- At a later tile output 7's staging buffer holds what the body left at the tile before: the buffer is
    not written back between two tiles of one half. -/
theorem before0_15_B (c : Dev nD) (t : Fin cfg0.N) (h0 : ¬t.val % 128 = 0) (d) :
    (dats m 0 c).before 15 t d = outsAt0 m c (t.val - 1) (Nat.lt_of_le_of_lt (Nat.sub_le _ _) t.isLt) 7 := by
  have hN : t.val < 256 := lt_of_lt_of_eq t.isLt (show cfg0.N = 256 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at any point: the inputs' memrefs hold their tiles; the point is the first of its half or not;
    in the second case each output's memref holds what the tile before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hN : t.val < 256 := lt_of_lt_of_eq t.isLt (show cfg0.N = 256 from N_0)
  by_cases h0 : t.val % 128 = 0
  · rw [outsAt0_A m c t h0]
    dsimp only [outA]
    unfold out0_A_8 out0_A_9 out0_A_10 out0_A_11 out0_A_12 out0_A_13 out0_A_14 out0_A_15
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _)
    unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _)
  · rw [outsAt0_B m c t h0]
    simp only [before0_8_B m c t h0, before0_9_B m c t h0, before0_10_B m c t h0, before0_11_B m c t h0, before0_12_B m c t h0, before0_13_B m c t h0, before0_14_B m c t h0, before0_15_B m c t h0]
    dsimp only [outB]
    unfold out0_B_8 out0_B_9 out0_B_10 out0_B_11 out0_B_12 out0_B_13 out0_B_14 out0_B_15
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 8000000 in
/-- Every weakly fair execution of @main on the TensorCores terminates, and every final state has every array of the
    pipeline at what the write-backs of the proof data make it and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KIBase.lean ====
/-
  The launch side of the Gram kernel's run, shared by its two control cases: @main is the region followed by the
  host lines that add the two halves of each Gram matrix and form the four ratios of Frobenius norms; the
  buffers as the region finds them; each input window's block at a grid point; the one branch of the body, on
  the second grid coordinate being zero, decided over the grid; and how the frame claim follows from a run that
  names every array after the region.
-/
import proofs.«133432_j18141941858429_2_alg».proof.Proof.Gen.KernelIdeal.Launch
import proofs.«133432_j18141941858429_2_alg».proof.Proof.Gen.KernelIdeal.Skeleton
import proofs.«133432_j18141941858429_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered: as launched (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- An operation whose one written buffer is no array of the pipeline writes no array of the pipeline. -/
theorem keeps_of {op : HloOp τ sig (Elt F)} {y : Ref sig .tc} (hw : op.writes = {Proc.devRef .tc y})
    (hy : ∀ w, Pipeline.arrRef spec0 w ≠ y) : ∀ w, Proc.devRef .tc (Pipeline.arrRef spec0 w) ∉ op.writes := fun w => by
  rw [hw, Finset.mem_singleton]; exact StableHlo.devRef_ne_of_ne (hy w)

/-- Each host line after the region writes its own result buffer, which is none of the sixteen arrays. -/
theorem hostOps1_keeps : (hostOps1 : List (HloOp τ sig (Elt F))).Forall fun op =>
    ∀ w, Proc.devRef .tc (Pipeline.arrRef spec0 w) ∉ op.writes :=
  ⟨keeps_of (y := main_cst) rfl (by decide),
   keeps_of (y := main_v1) rfl (by decide),
   keeps_of (y := main_cst_0) rfl (by decide),
   keeps_of (y := main_v2) rfl (by decide),
   keeps_of (y := main_cst_1) rfl (by decide),
   keeps_of (y := main_v3) rfl (by decide),
   keeps_of (y := main_cst_2) rfl (by decide),
   keeps_of (y := main_v4) rfl (by decide),
   keeps_of (y := main_cst_3) rfl (by decide),
   keeps_of (y := main_v5) rfl (by decide),
   keeps_of (y := main_cst_4) rfl (by decide),
   keeps_of (y := main_v6) rfl (by decide),
   keeps_of (y := main_cst_5) rfl (by decide),
   keeps_of (y := main_v7) rfl (by decide),
   keeps_of (y := main_cst_6) rfl (by decide),
   keeps_of (y := main_v8) rfl (by decide),
   keeps_of (y := main_v9) rfl (by decide),
   keeps_of (y := main_v10) rfl (by decide),
   keeps_of (y := main_cst_7) rfl (by decide),
   keeps_of (y := main_v11) rfl (by decide),
   keeps_of (y := main_v12) rfl (by decide),
   keeps_of (y := main_v13) rfl (by decide),
   keeps_of (y := main_cst_8) rfl (by decide),
   keeps_of (y := main_v14) rfl (by decide),
   keeps_of (y := main_v15) rfl (by decide),
   keeps_of (y := main_v16) rfl (by decide),
   keeps_of (y := main_v17) rfl (by decide),
   keeps_of (y := main_v18) rfl (by decide),
   keeps_of (y := main_v19) rfl (by decide),
   keeps_of (y := main_cst_9) rfl (by decide),
   keeps_of (y := main_v20) rfl (by decide),
   keeps_of (y := main_v21) rfl (by decide),
   keeps_of (y := main_v22) rfl (by decide),
   keeps_of (y := main_cst_10) rfl (by decide),
   keeps_of (y := main_v23) rfl (by decide),
   keeps_of (y := main_v24) rfl (by decide),
   keeps_of (y := main_v25) rfl (by decide),
   keeps_of (y := main_v26) rfl (by decide),
   keeps_of (y := main_v27) rfl (by decide),
   keeps_of (y := main_v28) rfl (by decide),
   keeps_of (y := main_cst_11) rfl (by decide),
   keeps_of (y := main_v29) rfl (by decide),
   keeps_of (y := main_v30) rfl (by decide),
   keeps_of (y := main_v31) rfl (by decide),
   keeps_of (y := main_cst_12) rfl (by decide),
   keeps_of (y := main_v32) rfl (by decide),
   keeps_of (y := main_v33) rfl (by decide),
   keeps_of (y := main_v34) rfl (by decide),
   keeps_of (y := main_v35) rfl (by decide),
   keeps_of (y := main_v36) rfl (by decide),
   keeps_of (y := main_v37) rfl (by decide),
   keeps_of (y := main_cst_13) rfl (by decide),
   keeps_of (y := main_v38) rfl (by decide),
   keeps_of (y := main_v39) rfl (by decide),
   keeps_of (y := main_v40) rfl (by decide),
   keeps_of (y := main_cst_14) rfl (by decide),
   keeps_of (y := main_v41) rfl (by decide),
   keeps_of (y := main_v42) rfl (by decide),
   keeps_of (y := main_v43) rfl (by decide),
   keeps_of (y := main_v44) rfl (by decide),
   keeps_of (y := main_v45) rfl (by decide),
   keeps_of (y := main_v46) rfl (by decide),
   keeps_of (y := main_v47) rfl (by decide),
   keeps_of (y := main_v48) rfl (by decide),
   keeps_of (y := main_v49) rfl (by decide),
   keeps_of (y := main_cst_15) rfl (by decide),
   keeps_of (y := main_v50) rfl (by decide)⟩

set_option maxHeartbeats 8000000 in
/-- @main reduces to the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that names every array after the region
    leaves the eight argument arrays as launched: each is an input window's array, never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).1 3).trans (((dats 0 c).arrAt_in 3 rfl _).trans ((hA c 3).trans (V_main_arg3 m c))),
    ((h c).1 4).trans (((dats 0 c).arrAt_in 4 rfl _).trans ((hA c 4).trans (V_main_arg4 m c))),
    ((h c).1 5).trans (((dats 0 c).arrAt_in 5 rfl _).trans ((hA c 5).trans (V_main_arg5 m c))),
    ((h c).1 6).trans (((dats 0 c).arrAt_in 6 rfl _).trans ((hA c 6).trans (V_main_arg6 m c))),
    ((h c).1 7).trans (((dats 0 c).arrAt_in 7 rfl _).trans ((hA c 7).trans (V_main_arg7 m c)))⟩) h

/-! ## The body's branch -/

/-- The condition of the body's one `scf.if`: the second grid coordinate is zero (the first tile of a half). -/
abbrev cond0_0 (i : grid0.Coords) : Prop := (Scalar.cmpi .ne (Scalar.extui (Scalar.cmpi .eq (BitVec.ofNat 32 (i 1).val) 0#32)) 0#32) = 1#1
/-- It holds at the points ≡ 0 (mod 128): the first point of each half. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs at a point -/

/-- One staging buffer of an output window, through which its contents are stated. -/
abbrev VO : View sig .tc .vmem S1x512x512 .f32 := (Memref.whole cc0_stg8_0 : Memref sig .tc .vmem S1x512x512 .f32).view
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x512 .f32 := win0_15.stage (cfg0.slots t 15)
abbrev hs0_15 (t : Fin cfg0.N) : (ms0_15 t).IsWhole := hstage0_15 ((cfg0.slots t 15).cast nbuf0_15)

end Cert.KernelIdeal.Hand

end
-- ==== Proof.KIRunA.lean ====
/-
  The kernel body run as a whole at the first tile of a half (the second grid coordinate is zero): every output block is
  reset to zero, then each receives the Gram product of its input tile added to what it holds. The stores
  each output buffer ends with are found by the run itself; what they amount to is read off them afterwards.
-/
import proofs.«133432_j18141941858429_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each output's staging memref (last first) when the branch is taken, with the proof
    that on whole staging memrefs — the inputs' at their tiles, the outputs' at anything — the body runs
    to the continuation holding the inputs' as they were and each output's buffer with those stores written. -/
noncomputable def kernelRun0_A (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) :
    Σ' (L8 : List (View.Piece (Elt F) S1x512x512 .f32)), Σ' (L9 : List (View.Piece (Elt F) S1x512x512 .f32)), Σ' (L10 : List (View.Piece (Elt F) S1x512x512 .f32)), Σ' (L11 : List (View.Piece (Elt F) S1x512x512 .f32)), Σ' (L12 : List (View.Piece (Elt F) S1x512x512 .f32)), Σ' (L13 : List (View.Piece (Elt F) S1x512x512 .f32)), Σ' (L14 : List (View.Piece (Elt F) S1x512x512 .f32)), { L15 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15)) -∗ K ⟨⟩))
          ⊢ wp frame (wpE (defs₀ (F := F)) Variants.none c none) E (cc0__gram_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0__gram_kernel_eq_skeleton]; unfold cc0__gram_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.KernelIdeal.Hand

end
-- ==== Proof.KIRunB.lean ====
/-
  The kernel body run as a whole at a later tile of a half: each output block receives the Gram product of its input
  tile added to what the point before left in it. The stores
  each output buffer ends with are found by the run itself; what they amount to is read off them afterwards.
-/
import proofs.«133432_j18141941858429_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each output's staging memref (last first) when the branch is not taken, with the proof
    that on whole staging memrefs — the inputs' at their tiles, the outputs' at what the point before left — the body runs
    to the continuation holding the inputs' as they were and each output's buffer with those stores written. -/
noncomputable def kernelRun0_B (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) :
    Σ' (L8 : List (View.Piece (Elt F) S1x512x512 .f32)), Σ' (L9 : List (View.Piece (Elt F) S1x512x512 .f32)), Σ' (L10 : List (View.Piece (Elt F) S1x512x512 .f32)), Σ' (L11 : List (View.Piece (Elt F) S1x512x512 .f32)), Σ' (L12 : List (View.Piece (Elt F) S1x512x512 .f32)), Σ' (L13 : List (View.Piece (Elt F) S1x512x512 .f32)), Σ' (L14 : List (View.Piece (Elt F) S1x512x512 .f32)), { L15 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ owns (c : Thread nD τ) arg12 fullShare xo10 ∗ owns (c : Thread nD τ) arg13 fullShare xo11 ∗ owns (c : Thread nD τ) arg14 fullShare xo12 ∗ owns (c : Thread nD τ) arg15 fullShare xo13 ∗ owns (c : Thread nD τ) arg16 fullShare xo14 ∗ owns (c : Thread nD τ) arg17 fullShare xo15
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15)) -∗ K ⟨⟩))
          ⊢ wp frame (wpE (defs₀ (F := F)) Variants.none c none) E (cc0__gram_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0__gram_kernel_eq_skeleton]; unfold cc0__gram_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.KernelIdeal.Hand

end
-- ==== Proof.KIFrame.lean ====
/-
  The Gram kernel's run over its grid. The grid is two halves of 128 tiles; the eight output blocks of a half are
  accumulators: the first tile of the half resets them and adds its products, every later tile adds its
  products to what the tile before left, and the block is written back after the last tile of the half. This
  module states what the outputs hold after every point by recursion on the point, shows that the body does
  that at every point, and runs @main: the region, then the host lines.
-/
import proofs.«133432_j18141941858429_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores amount to -/

theorem cover0_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 S1x512x512.size (by sl_kernel_rfl) y

/-- What the first tile of a half leaves in output 0's staging buffer: its stores read back. -/
def out0_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1)

theorem cover0_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).1 S1x512x512.size (by sl_kernel_rfl) y

/-- What a later tile leaves in output 0's staging buffer: its stores read back. -/
def out0_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).1)

theorem cover0_A_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1 S1x512x512.size (by sl_kernel_rfl) y

/-- What the first tile of a half leaves in output 1's staging buffer: its stores read back. -/
def out0_A_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1)

theorem cover0_B_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.1 S1x512x512.size (by sl_kernel_rfl) y

/-- What a later tile leaves in output 1's staging buffer: its stores read back. -/
def out0_B_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.1)

theorem cover0_A_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1 S1x512x512.size (by sl_kernel_rfl) y

/-- What the first tile of a half leaves in output 2's staging buffer: its stores read back. -/
def out0_A_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1)

theorem cover0_B_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.1 S1x512x512.size (by sl_kernel_rfl) y

/-- What a later tile leaves in output 2's staging buffer: its stores read back. -/
def out0_B_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.1)

theorem cover0_A_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1 S1x512x512.size (by sl_kernel_rfl) y

/-- What the first tile of a half leaves in output 3's staging buffer: its stores read back. -/
def out0_A_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1)

theorem cover0_B_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.1 S1x512x512.size (by sl_kernel_rfl) y

/-- What a later tile leaves in output 3's staging buffer: its stores read back. -/
def out0_B_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.1)

theorem cover0_A_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1 S1x512x512.size (by sl_kernel_rfl) y

/-- What the first tile of a half leaves in output 4's staging buffer: its stores read back. -/
def out0_A_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1)

theorem cover0_B_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.1 S1x512x512.size (by sl_kernel_rfl) y

/-- What a later tile leaves in output 4's staging buffer: its stores read back. -/
def out0_B_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.1)

theorem cover0_A_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1 S1x512x512.size (by sl_kernel_rfl) y

/-- What the first tile of a half leaves in output 5's staging buffer: its stores read back. -/
def out0_A_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1)

theorem cover0_B_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.1 S1x512x512.size (by sl_kernel_rfl) y

/-- What a later tile leaves in output 5's staging buffer: its stores read back. -/
def out0_B_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.1)

theorem cover0_A_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1 S1x512x512.size (by sl_kernel_rfl) y

/-- What the first tile of a half leaves in output 6's staging buffer: its stores read back. -/
def out0_A_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1)

theorem cover0_B_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.1 S1x512x512.size (by sl_kernel_rfl) y

/-- What a later tile leaves in output 6's staging buffer: its stores read back. -/
def out0_B_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.1)

theorem cover0_A_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1 S1x512x512.size (by sl_kernel_rfl) y

/-- What the first tile of a half leaves in output 7's staging buffer: its stores read back. -/
def out0_A_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i)
    (x0 x1 x2 x3 x4 x5 x6 x7 : Vec F S1x512x256 .f32) : Vec F S1x512x512 .f32 :=
  VO.read (Elt F) (VO.writes (Elt F) VO.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1)

theorem cover0_B_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.2.1 S1x512x512.size (by sl_kernel_rfl) y

/-- What a later tile leaves in output 7's staging buffer: its stores read back. -/
def out0_B_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i)
    (x0 x1 x2 x3 x4 x5 x6 x7 : Vec F S1x512x256 .f32) (xo8 xo9 xo10 xo11 xo12 xo13 xo14 xo15 : Vec F S1x512x512 .f32) : Vec F S1x512x512 .f32 :=
  VO.read (Elt F) (VO.writes (Elt F) VO.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15).2.2.2.2.2.2.2.1)

/-! ## What the outputs hold after each point -/

/-- The eight outputs after the first tile of a half. -/
def outA (c : Dev nD) (t : Fin cfg0.N) (h0 : t.val % 128 = 0) : Fin 8 → Vec F S1x512x512 .f32 := fun j => match j with
  | ⟨0, _⟩ => out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨1, _⟩ => out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨2, _⟩ => out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨3, _⟩ => out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨4, _⟩ => out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨5, _⟩ => out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨6, _⟩ => out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)
  | ⟨7, _⟩ => out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t)

/-- The eight outputs after a later tile, over what the tile before left. -/
def outB (c : Dev nD) (t : Fin cfg0.N) (h0 : ¬t.val % 128 = 0) (prev : Fin 8 → Vec F S1x512x512 .f32) : Fin 8 → Vec F S1x512x512 .f32 := fun j => match j with
  | ⟨0, _⟩ => out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨1, _⟩ => out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨2, _⟩ => out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨3, _⟩ => out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨4, _⟩ => out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨5, _⟩ => out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨6, _⟩ => out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)
  | ⟨7, _⟩ => out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (prev 0) (prev 1) (prev 2) (prev 3) (prev 4) (prev 5) (prev 6) (prev 7)

/-- The accumulation: what the outputs' staging buffers hold after the body at position `n`. -/
def outsAt0 (c : Dev nD) : (n : ℕ) → n < cfg0.N → Fin 8 → Vec F S1x512x512 .f32
  | 0, hn => outA m c ⟨0, hn⟩ (Nat.zero_mod _)
  | n + 1, hn =>
    if h0 : (n + 1) % 128 = 0 then outA m c ⟨n + 1, hn⟩ h0
    else outB m c ⟨n + 1, hn⟩ h0 (outsAt0 c n (Nat.lt_of_succ_lt hn))

theorem outsAt0_A (c : Dev nD) (t : Fin cfg0.N) (h0 : t.val % 128 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 128 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its tile and each
    output's at the accumulation; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt0 m c t.val t.isLt 0
    | ⟨9, _⟩ => outsAt0 m c t.val t.isLt 1
    | ⟨10, _⟩ => outsAt0 m c t.val t.isLt 2
    | ⟨11, _⟩ => outsAt0 m c t.val t.isLt 3
    | ⟨12, _⟩ => outsAt0 m c t.val t.isLt 4
    | ⟨13, _⟩ => outsAt0 m c t.val t.isLt 5
    | ⟨14, _⟩ => outsAt0 m c t.val t.isLt 6
    | ⟨15, _⟩ => outsAt0 m c t.val t.isLt 7
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt0 m c t.val t.isLt 0 := by dsimp only [dats]
theorem after0_9 (c : Dev nD) (t : Fin cfg0.N) : (dats m 0 c).after 9 t = outsAt0 m c t.val t.isLt 1 := by dsimp only [dats]
theorem after0_10 (c : Dev nD) (t : Fin cfg0.N) : (dats m 0 c).after 10 t = outsAt0 m c t.val t.isLt 2 := by dsimp only [dats]
theorem after0_11 (c : Dev nD) (t : Fin cfg0.N) : (dats m 0 c).after 11 t = outsAt0 m c t.val t.isLt 3 := by dsimp only [dats]
theorem after0_12 (c : Dev nD) (t : Fin cfg0.N) : (dats m 0 c).after 12 t = outsAt0 m c t.val t.isLt 4 := by dsimp only [dats]
theorem after0_13 (c : Dev nD) (t : Fin cfg0.N) : (dats m 0 c).after 13 t = outsAt0 m c t.val t.isLt 5 := by dsimp only [dats]
theorem after0_14 (c : Dev nD) (t : Fin cfg0.N) : (dats m 0 c).after 14 t = outsAt0 m c t.val t.isLt 6 := by dsimp only [dats]
theorem after0_15 (c : Dev nD) (t : Fin cfg0.N) : (dats m 0 c).after 15 t = outsAt0 m c t.val t.isLt 7 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later tile output 0's staging buffer holds what the body left at the tile before: the buffer is
    not written back between two tiles of one half. -/
theorem before0_8_B (c : Dev nD) (t : Fin cfg0.N) (h0 : ¬t.val % 128 = 0) (d) :
    (dats m 0 c).before 8 t d = outsAt0 m c (t.val - 1) (Nat.lt_of_le_of_lt (Nat.sub_le _ _) t.isLt) 0 := by
  have hN : t.val < 256 := lt_of_lt_of_eq t.isLt (show cfg0.N = 256 from N_0)
  rw [Dat.before_out_kept _ 8 rfl t (by omega) (Bool.eq_false_iff.mpr fun h => by have := (flush0_8 _).mp h; dsimp only at this; omega)
    (fun _ => rfl) (fun _ _ => rfl)]
  dsimp only [dats]
/-- At a later tile output 1's staging buffer holds what the body left at the tile before: the buffer is
    not written back between two tiles of one half. -/
theorem before0_9_B (c : Dev nD) (t : Fin cfg0.N) (h0 : ¬t.val % 128 = 0) (d) :
    (dats m 0 c).before 9 t d = outsAt0 m c (t.val - 1) (Nat.lt_of_le_of_lt (Nat.sub_le _ _) t.isLt) 1 := by
  have hN : t.val < 256 := lt_of_lt_of_eq t.isLt (show cfg0.N = 256 from N_0)
  rw [Dat.before_out_kept _ 9 rfl t (by omega) (Bool.eq_false_iff.mpr fun h => by have := (flush0_9 _).mp h; dsimp only at this; omega)
    (fun _ => rfl) (fun _ _ => rfl)]
  dsimp only [dats]
/-- At a later tile output 2's staging buffer holds what the body left at the tile before: the buffer is
    not written back between two tiles of one half. -/
theorem before0_10_B (c : Dev nD) (t : Fin cfg0.N) (h0 : ¬t.val % 128 = 0) (d) :
    (dats m 0 c).before 10 t d = outsAt0 m c (t.val - 1) (Nat.lt_of_le_of_lt (Nat.sub_le _ _) t.isLt) 2 := by
  have hN : t.val < 256 := lt_of_lt_of_eq t.isLt (show cfg0.N = 256 from N_0)
  rw [Dat.before_out_kept _ 10 rfl t (by omega) (Bool.eq_false_iff.mpr fun h => by have := (flush0_10 _).mp h; dsimp only at this; omega)
    (fun _ => rfl) (fun _ _ => rfl)]
  dsimp only [dats]
/-- At a later tile output 3's staging buffer holds what the body left at the tile before: the buffer is
    not written back between two tiles of one half. -/
theorem before0_11_B (c : Dev nD) (t : Fin cfg0.N) (h0 : ¬t.val % 128 = 0) (d) :
    (dats m 0 c).before 11 t d = outsAt0 m c (t.val - 1) (Nat.lt_of_le_of_lt (Nat.sub_le _ _) t.isLt) 3 := by
  have hN : t.val < 256 := lt_of_lt_of_eq t.isLt (show cfg0.N = 256 from N_0)
  rw [Dat.before_out_kept _ 11 rfl t (by omega) (Bool.eq_false_iff.mpr fun h => by have := (flush0_11 _).mp h; dsimp only at this; omega)
    (fun _ => rfl) (fun _ _ => rfl)]
  dsimp only [dats]
/-- At a later tile output 4's staging buffer holds what the body left at the tile before: the buffer is
    not written back between two tiles of one half. -/
theorem before0_12_B (c : Dev nD) (t : Fin cfg0.N) (h0 : ¬t.val % 128 = 0) (d) :
    (dats m 0 c).before 12 t d = outsAt0 m c (t.val - 1) (Nat.lt_of_le_of_lt (Nat.sub_le _ _) t.isLt) 4 := by
  have hN : t.val < 256 := lt_of_lt_of_eq t.isLt (show cfg0.N = 256 from N_0)
  rw [Dat.before_out_kept _ 12 rfl t (by omega) (Bool.eq_false_iff.mpr fun h => by have := (flush0_12 _).mp h; dsimp only at this; omega)
    (fun _ => rfl) (fun _ _ => rfl)]
  dsimp only [dats]
/-- At a later tile output 5's staging buffer holds what the body left at the tile before: the buffer is
    not written back between two tiles of one half. -/
theorem before0_13_B (c : Dev nD) (t : Fin cfg0.N) (h0 : ¬t.val % 128 = 0) (d) :
    (dats m 0 c).before 13 t d = outsAt0 m c (t.val - 1) (Nat.lt_of_le_of_lt (Nat.sub_le _ _) t.isLt) 5 := by
  have hN : t.val < 256 := lt_of_lt_of_eq t.isLt (show cfg0.N = 256 from N_0)
  rw [Dat.before_out_kept _ 13 rfl t (by omega) (Bool.eq_false_iff.mpr fun h => by have := (flush0_13 _).mp h; dsimp only at this; omega)
    (fun _ => rfl) (fun _ _ => rfl)]
  dsimp only [dats]
/-- At a later tile output 6's staging buffer holds what the body left at the tile before: the buffer is
    not written back between two tiles of one half. -/
theorem before0_14_B (c : Dev nD) (t : Fin cfg0.N) (h0 : ¬t.val % 128 = 0) (d) :
    (dats m 0 c).before 14 t d = outsAt0 m c (t.val - 1) (Nat.lt_of_le_of_lt (Nat.sub_le _ _) t.isLt) 6 := by
  have hN : t.val < 256 := lt_of_lt_of_eq t.isLt (show cfg0.N = 256 from N_0)
  rw [Dat.before_out_kept _ 14 rfl t (by omega) (Bool.eq_false_iff.mpr fun h => by have := (flush0_14 _).mp h; dsimp only at this; omega)
    (fun _ => rfl) (fun _ _ => rfl)]
  dsimp only [dats]
/-- At a later tile output 7's staging buffer holds what the body left at the tile before: the buffer is
    not written back between two tiles of one half. -/
theorem before0_15_B (c : Dev nD) (t : Fin cfg0.N) (h0 : ¬t.val % 128 = 0) (d) :
    (dats m 0 c).before 15 t d = outsAt0 m c (t.val - 1) (Nat.lt_of_le_of_lt (Nat.sub_le _ _) t.isLt) 7 := by
  have hN : t.val < 256 := lt_of_lt_of_eq t.isLt (show cfg0.N = 256 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at any point: the inputs' memrefs hold their tiles; the point is the first of its half or not;
    in the second case each output's memref holds what the tile before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hN : t.val < 256 := lt_of_lt_of_eq t.isLt (show cfg0.N = 256 from N_0)
  by_cases h0 : t.val % 128 = 0
  · rw [outsAt0_A m c t h0]
    dsimp only [outA]
    unfold out0_A_8 out0_A_9 out0_A_10 out0_A_11 out0_A_12 out0_A_13 out0_A_14 out0_A_15
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _)
    unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _)
  · rw [outsAt0_B m c t h0]
    simp only [before0_8_B m c t h0, before0_9_B m c t h0, before0_10_B m c t h0, before0_11_B m c t h0, before0_12_B m c t h0, before0_13_B m c t h0, before0_14_B m c t h0, before0_15_B m c t h0]
    dsimp only [outB]
    unfold out0_B_8 out0_B_9 out0_B_10 out0_B_11 out0_B_12 out0_B_13 out0_B_14 out0_B_15
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 8000000 in
/-- Every weakly fair execution of @main on the TensorCores terminates, and every final state has every array of the
    pipeline at what the write-backs of the proof data make it and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.KIOuts.lean ====
/-
  What the Gram kernel's stores amount to. At the first tile of a half every output block ends at the zero block
  plus the tile's Gram product; at a later tile at what the tile before left plus the tile's Gram product. So
  each output block, point by point, is a running sum that restarts with each half.
-/
import proofs.«133432_j18141941858429_2_alg».proof.Proof.KIFrame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- One tile's update of an accumulator block: the block plus the Gram product of the tile with itself. -/
def step (x : Vec F S1x512x256 .f32) (prev : Vec F S1x512x512 .f32) : Vec F S1x512x512 .f32 := k0_pay13 x prev

/-- The zero block a reset stores. -/
def zeroBlk : Vec F S1x512x512 .f32 := k0_pay4

/-- A later tile leaves in output 0's block the block it found plus the tile's Gram product. -/
theorem out_B_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x0 xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg2.read_unread, harg10.read_unread, View.ld_unit_zero (S := S1x512x256) hz3, View.ld_unit_zero (S := S1x512x512) hz3]
  rfl

/-- The first tile of a half leaves in output 0's block the zero block plus the tile's Gram product. -/
theorem out_A_8 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x0 zeroBlk := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg2.read_unread, View.ld_unit_zero (S := S1x512x256) hz3]
  rfl

/-- A later tile leaves in output 1's block the block it found plus the tile's Gram product. -/
theorem out_B_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x1 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg3.read_unread, harg11.read_unread, View.ld_unit_zero (S := S1x512x256) hz3, View.ld_unit_zero (S := S1x512x512) hz3]
  rfl

/-- The first tile of a half leaves in output 1's block the zero block plus the tile's Gram product. -/
theorem out_A_9 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x1 zeroBlk := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg3.read_unread, View.ld_unit_zero (S := S1x512x256) hz3]
  rfl

/-- A later tile leaves in output 2's block the block it found plus the tile's Gram product. -/
theorem out_B_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x2 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg4.read_unread, harg12.read_unread, View.ld_unit_zero (S := S1x512x256) hz3, View.ld_unit_zero (S := S1x512x512) hz3]
  rfl

/-- The first tile of a half leaves in output 2's block the zero block plus the tile's Gram product. -/
theorem out_A_10 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x2 zeroBlk := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg4.read_unread, View.ld_unit_zero (S := S1x512x256) hz3]
  rfl

/-- A later tile leaves in output 3's block the block it found plus the tile's Gram product. -/
theorem out_B_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x3 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg5.read_unread, harg13.read_unread, View.ld_unit_zero (S := S1x512x256) hz3, View.ld_unit_zero (S := S1x512x512) hz3]
  rfl

/-- The first tile of a half leaves in output 3's block the zero block plus the tile's Gram product. -/
theorem out_A_11 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x3 zeroBlk := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg5.read_unread, View.ld_unit_zero (S := S1x512x256) hz3]
  rfl

/-- A later tile leaves in output 4's block the block it found plus the tile's Gram product. -/
theorem out_B_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x4 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg6.read_unread, harg14.read_unread, View.ld_unit_zero (S := S1x512x256) hz3, View.ld_unit_zero (S := S1x512x512) hz3]
  rfl

/-- The first tile of a half leaves in output 4's block the zero block plus the tile's Gram product. -/
theorem out_A_12 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x4 zeroBlk := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg6.read_unread, View.ld_unit_zero (S := S1x512x256) hz3]
  rfl

/-- A later tile leaves in output 5's block the block it found plus the tile's Gram product. -/
theorem out_B_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x5 xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg7.read_unread, harg15.read_unread, View.ld_unit_zero (S := S1x512x256) hz3, View.ld_unit_zero (S := S1x512x512) hz3]
  rfl

/-- The first tile of a half leaves in output 5's block the zero block plus the tile's Gram product. -/
theorem out_A_13 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x5 zeroBlk := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg7.read_unread, View.ld_unit_zero (S := S1x512x256) hz3]
  rfl

/-- A later tile leaves in output 6's block the block it found plus the tile's Gram product. -/
theorem out_B_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x6 xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg8.read_unread, harg16.read_unread, View.ld_unit_zero (S := S1x512x256) hz3, View.ld_unit_zero (S := S1x512x512) hz3]
  rfl

/-- The first tile of a half leaves in output 6's block the zero block plus the tile's Gram product. -/
theorem out_A_14 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x6 zeroBlk := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg8.read_unread, View.ld_unit_zero (S := S1x512x256) hz3]
  rfl

/-- A later tile leaves in output 7's block the block it found plus the tile's Gram product. -/
theorem out_B_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : ¬cond0_0 i) (x0 x1 x2 x3 x4 x5 x6 x7 : Vec F S1x512x256 .f32) (xo8 xo9 xo10 xo11 xo12 xo13 xo14 xo15 : Vec F S1x512x512 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15 = step x7 xo15 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo8 xo9 xo10 xo11 xo12 xo13 xo14 xo15)]
  unfold kernelRun0_B
  dsimp only
  sl_unfold_words
  rw [View.canon_unit_zero hz3]
  simp only [View.readAt_eq_ld, harg9.read_unread, harg17.read_unread, View.ld_unit_zero (S := S1x512x256) hz3, View.ld_unit_zero (S := S1x512x512) hz3]
  rfl

/-- The first tile of a half leaves in output 7's block the zero block plus the tile's Gram product. -/
theorem out_A_15 (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (hc0 : cond0_0 i) (x0 x1 x2 x3 x4 x5 x6 x7 : Vec F S1x512x256 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = step x7 zeroBlk := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  sl_unfold_words
  rw [View.canon_cons_unit_zero (S := S1x512x512) hz3, View.readCov_unit_zero (S := S1x512x512) _ hz3]
  simp only [View.readAt_eq_ld, harg9.read_unread, View.ld_unit_zero (S := S1x512x256) hz3]
  rfl

/-! ## Each output block as a running sum over the points -/

/-- What output 0's staging buffer holds after point `n` (the zero block past the grid). -/
def O0 (c : Dev nD) (n : ℕ) : Vec F S1x512x512 .f32 := if hn : n < cfg0.N then outsAt0 m c n hn 0 else zeroBlk

theorem O0_first (c : Dev nD) (n : ℕ) (hn : n < cfg0.N) (h0 : n % 128 = 0) :
    O0 m c n = step (iblk m c 0 ⟨n, hn⟩) zeroBlk := by
  unfold O0; rw [dif_pos hn, outsAt0_A m c ⟨n, hn⟩ h0]
  dsimp only [outA]
  exact out_A_8 ..

theorem O0_next (c : Dev nD) (n : ℕ) (hn : n + 1 < cfg0.N) (h0 : ¬(n + 1) % 128 = 0) :
    O0 m c (n + 1) = step (iblk m c 0 ⟨n + 1, hn⟩) (O0 m c n) := by
  unfold O0; rw [dif_pos hn, dif_pos (Nat.lt_of_succ_lt hn), outsAt0_B m c ⟨n + 1, hn⟩ h0]
  dsimp only [outB]
  exact out_B_8 ..

/-- What output 1's staging buffer holds after point `n` (the zero block past the grid). -/
def O1 (c : Dev nD) (n : ℕ) : Vec F S1x512x512 .f32 := if hn : n < cfg0.N then outsAt0 m c n hn 1 else zeroBlk

theorem O1_first (c : Dev nD) (n : ℕ) (hn : n < cfg0.N) (h0 : n % 128 = 0) :
    O1 m c n = step (iblk m c 1 ⟨n, hn⟩) zeroBlk := by
  unfold O1; rw [dif_pos hn, outsAt0_A m c ⟨n, hn⟩ h0]
  dsimp only [outA]
  exact out_A_9 ..

theorem O1_next (c : Dev nD) (n : ℕ) (hn : n + 1 < cfg0.N) (h0 : ¬(n + 1) % 128 = 0) :
    O1 m c (n + 1) = step (iblk m c 1 ⟨n + 1, hn⟩) (O1 m c n) := by
  unfold O1; rw [dif_pos hn, dif_pos (Nat.lt_of_succ_lt hn), outsAt0_B m c ⟨n + 1, hn⟩ h0]
  dsimp only [outB]
  exact out_B_9 ..

/-- What output 2's staging buffer holds after point `n` (the zero block past the grid). -/
def O2 (c : Dev nD) (n : ℕ) : Vec F S1x512x512 .f32 := if hn : n < cfg0.N then outsAt0 m c n hn 2 else zeroBlk

theorem O2_first (c : Dev nD) (n : ℕ) (hn : n < cfg0.N) (h0 : n % 128 = 0) :
    O2 m c n = step (iblk m c 2 ⟨n, hn⟩) zeroBlk := by
  unfold O2; rw [dif_pos hn, outsAt0_A m c ⟨n, hn⟩ h0]
  dsimp only [outA]
  exact out_A_10 ..

theorem O2_next (c : Dev nD) (n : ℕ) (hn : n + 1 < cfg0.N) (h0 : ¬(n + 1) % 128 = 0) :
    O2 m c (n + 1) = step (iblk m c 2 ⟨n + 1, hn⟩) (O2 m c n) := by
  unfold O2; rw [dif_pos hn, dif_pos (Nat.lt_of_succ_lt hn), outsAt0_B m c ⟨n + 1, hn⟩ h0]
  dsimp only [outB]
  exact out_B_10 ..

/-- What output 3's staging buffer holds after point `n` (the zero block past the grid). -/
def O3 (c : Dev nD) (n : ℕ) : Vec F S1x512x512 .f32 := if hn : n < cfg0.N then outsAt0 m c n hn 3 else zeroBlk

theorem O3_first (c : Dev nD) (n : ℕ) (hn : n < cfg0.N) (h0 : n % 128 = 0) :
    O3 m c n = step (iblk m c 3 ⟨n, hn⟩) zeroBlk := by
  unfold O3; rw [dif_pos hn, outsAt0_A m c ⟨n, hn⟩ h0]
  dsimp only [outA]
  exact out_A_11 ..

theorem O3_next (c : Dev nD) (n : ℕ) (hn : n + 1 < cfg0.N) (h0 : ¬(n + 1) % 128 = 0) :
    O3 m c (n + 1) = step (iblk m c 3 ⟨n + 1, hn⟩) (O3 m c n) := by
  unfold O3; rw [dif_pos hn, dif_pos (Nat.lt_of_succ_lt hn), outsAt0_B m c ⟨n + 1, hn⟩ h0]
  dsimp only [outB]
  exact out_B_11 ..

/-- What output 4's staging buffer holds after point `n` (the zero block past the grid). -/
def O4 (c : Dev nD) (n : ℕ) : Vec F S1x512x512 .f32 := if hn : n < cfg0.N then outsAt0 m c n hn 4 else zeroBlk

theorem O4_first (c : Dev nD) (n : ℕ) (hn : n < cfg0.N) (h0 : n % 128 = 0) :
    O4 m c n = step (iblk m c 4 ⟨n, hn⟩) zeroBlk := by
  unfold O4; rw [dif_pos hn, outsAt0_A m c ⟨n, hn⟩ h0]
  dsimp only [outA]
  exact out_A_12 ..

theorem O4_next (c : Dev nD) (n : ℕ) (hn : n + 1 < cfg0.N) (h0 : ¬(n + 1) % 128 = 0) :
    O4 m c (n + 1) = step (iblk m c 4 ⟨n + 1, hn⟩) (O4 m c n) := by
  unfold O4; rw [dif_pos hn, dif_pos (Nat.lt_of_succ_lt hn), outsAt0_B m c ⟨n + 1, hn⟩ h0]
  dsimp only [outB]
  exact out_B_12 ..

/-- What output 5's staging buffer holds after point `n` (the zero block past the grid). -/
def O5 (c : Dev nD) (n : ℕ) : Vec F S1x512x512 .f32 := if hn : n < cfg0.N then outsAt0 m c n hn 5 else zeroBlk

theorem O5_first (c : Dev nD) (n : ℕ) (hn : n < cfg0.N) (h0 : n % 128 = 0) :
    O5 m c n = step (iblk m c 5 ⟨n, hn⟩) zeroBlk := by
  unfold O5; rw [dif_pos hn, outsAt0_A m c ⟨n, hn⟩ h0]
  dsimp only [outA]
  exact out_A_13 ..

theorem O5_next (c : Dev nD) (n : ℕ) (hn : n + 1 < cfg0.N) (h0 : ¬(n + 1) % 128 = 0) :
    O5 m c (n + 1) = step (iblk m c 5 ⟨n + 1, hn⟩) (O5 m c n) := by
  unfold O5; rw [dif_pos hn, dif_pos (Nat.lt_of_succ_lt hn), outsAt0_B m c ⟨n + 1, hn⟩ h0]
  dsimp only [outB]
  exact out_B_13 ..

/-- What output 6's staging buffer holds after point `n` (the zero block past the grid). -/
def O6 (c : Dev nD) (n : ℕ) : Vec F S1x512x512 .f32 := if hn : n < cfg0.N then outsAt0 m c n hn 6 else zeroBlk

theorem O6_first (c : Dev nD) (n : ℕ) (hn : n < cfg0.N) (h0 : n % 128 = 0) :
    O6 m c n = step (iblk m c 6 ⟨n, hn⟩) zeroBlk := by
  unfold O6; rw [dif_pos hn, outsAt0_A m c ⟨n, hn⟩ h0]
  dsimp only [outA]
  exact out_A_14 ..

theorem O6_next (c : Dev nD) (n : ℕ) (hn : n + 1 < cfg0.N) (h0 : ¬(n + 1) % 128 = 0) :
    O6 m c (n + 1) = step (iblk m c 6 ⟨n + 1, hn⟩) (O6 m c n) := by
  unfold O6; rw [dif_pos hn, dif_pos (Nat.lt_of_succ_lt hn), outsAt0_B m c ⟨n + 1, hn⟩ h0]
  dsimp only [outB]
  exact out_B_14 ..

/-- What output 7's staging buffer holds after point `n` (the zero block past the grid). -/
def O7 (c : Dev nD) (n : ℕ) : Vec F S1x512x512 .f32 := if hn : n < cfg0.N then outsAt0 m c n hn 7 else zeroBlk

theorem O7_first (c : Dev nD) (n : ℕ) (hn : n < cfg0.N) (h0 : n % 128 = 0) :
    O7 m c n = step (iblk m c 7 ⟨n, hn⟩) zeroBlk := by
  unfold O7; rw [dif_pos hn, outsAt0_A m c ⟨n, hn⟩ h0]
  dsimp only [outA]
  exact out_A_15 ..

theorem O7_next (c : Dev nD) (n : ℕ) (hn : n + 1 < cfg0.N) (h0 : ¬(n + 1) % 128 = 0) :
    O7 m c (n + 1) = step (iblk m c 7 ⟨n + 1, hn⟩) (O7 m c n) := by
  unfold O7; rw [dif_pos hn, dif_pos (Nat.lt_of_succ_lt hn), outsAt0_B m c ⟨n + 1, hn⟩ h0]
  dsimp only [outB]
  exact out_B_15 ..

end Cert.KernelIdeal.Hand

end
-- ==== Proof.KIArrays.lean ====
/-
  From blocks to arrays. A tile of an input window at point `t` is columns 256·t … 256·t+255 of its argument array;
  output window `j` writes its block back after the last tile of each half, block `h` of the result array being the
  running sum after point 128·h+127; the two blocks tile the result array, so after the run the result array is that
  function of the points' running sums, index by index.
-/
import proofs.«133432_j18141941858429_2_alg».proof.Proof.KIOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where tile `t`'s entry `y` sits in the argument array: same row, column 256·t + the tile's column. -/
def tileIdx (t : ℕ) (y : S1x512x256.Idx) : S1x512x65536.Idx := fun a => match a with
  | ⟨0, _⟩ => (⟨0, Nat.one_pos⟩ : Fin 1)
  | ⟨1, _⟩ => y 1
  | ⟨2, _⟩ => (⟨(t * 256 + (y 2).val) % 65536, Nat.mod_lt _ (by decide)⟩ : Fin 65536)

/-- A result array's index inside its half's block. -/
def blkIdx (idx : S2x512x512.Idx) : S1x512x512.Idx := fun a => match a with
  | ⟨0, _⟩ => (⟨0, Nat.one_pos⟩ : Fin 1)
  | ⟨1, _⟩ => idx 1
  | ⟨2, _⟩ => idx 2

/-! ## Input window 0 and output window 8 -/

theorem idx_in_0 : ∀ t : Fin cfg0.N, win0_0.index t (0 : Fin 3) = 0 ∧ win0_0.index t (1 : Fin 3) = 0 ∧ win0_0.index t (2 : Fin 3) = t.val :=
  (by decide +kernel : ∀ t : Fin grid0.N, _)

theorem idx_out_0 : ∀ t : Fin cfg0.N, win0_8.index t (0 : Fin 3) = t.val / 128 ∧ win0_8.index t (1 : Fin 3) = 0 ∧ win0_8.index t (2 : Fin 3) = 0 :=
  (by decide +kernel : ∀ t : Fin grid0.N, _)

/-- Tile `t` of input 0, entry by entry, is the argument array at the tile's columns. -/
theorem iblk_0_apply (c : Dev nD) (t : Fin cfg0.N) (y : S1x512x256.Idx) :
    (iblk m c 0 t : Vec F S1x512x256 .f32) y = m ((c : Thread nD τ).loc main_arg0) (tileIdx t.val y) := by
  obtain ⟨e0, e1, e2⟩ := idx_in_0 t
  have hN : t.val < 256 := lt_of_lt_of_eq t.isLt (show cfg0.N = 256 from N_0)
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * (y 0).val = 0; have hy : (y 0).val < 1 := (y 0).isLt; omega
  | ⟨1, _⟩ => show win0_0.index t (1 : Fin 3) * 512 + 1 * (y 1).val = (y 1).val; omega
  | ⟨2, _⟩ => show win0_0.index t (2 : Fin 3) * 256 + 1 * (y 2).val = (t.val * 256 + (y 2).val) % 65536; have hy : (y 2).val < 256 := (y 2).isLt; omega

/-- Result array 0 after the run: half `h`'s block is the running sum after the half's last tile. -/
def res0 (c : Dev nD) : Buf (Elt F) ((c : Thread nD τ).loc main_v0_0) := fun idx => O0 m c (128 * (idx 0).val + 127) (blkIdx idx)

theorem O0_at (c : Dev nD) (t : Fin cfg0.N) : outsAt0 m c t.val t.isLt 0 = O0 m c t.val := by
  unfold O0; rw [dif_pos t.isLt]

theorem mem_blk_0 (t : Fin cfg0.N) (i : S2x512x512.Idx) :
    i ∈ ((cfg0.win 8).blk t).view.set ↔ ∀ a : Fin 3, win0_8.index t a * S1x512x512.size a ≤ (i a).val ∧ (i a).val < win0_8.index t a * S1x512x512.size a + S1x512x512.size a := by
  show i ∈ ((View.whole main_v0_0).slice (win0_8.rect t)).set ↔ _
  rw [View.set_slice_whole, Rect.mem_set_unit]
  exact Iff.rfl

/-- What a point that writes output 0 back writes: its half's block of `res0`. -/
theorem flushed_0_eq (c : Dev nD) (t : Fin cfg0.N) (hf : (cfg0.win 8).flush t = true) :
    (dats m 0 c).flushed 8 t = ((cfg0.win 8).blk t).view.read (Elt F) (res0 m c) := by
  have hN : t.val < 256 := lt_of_lt_of_eq t.isLt (show cfg0.N = 256 from N_0)
  have h127 : t.val % 128 = 127 := (flush0_8 t).mp hf
  obtain ⟨e0, e1, e2⟩ := idx_out_0 t
  show (cfg0.win 8).cut (grid0.coords t) ((dats m 0 c).after 8 t) = _
  rw [after0_8, O0_at]
  funext y
  rw [View.read_apply]
  show O0 m c t.val y = O0 m c (128 * (((cfg0.win 8).blk t).view.emb y 0).val + 127) (blkIdx (((cfg0.win 8).blk t).view.emb y))
  have hy0 : (y 0).val < 1 := (y 0).isLt
  have hn : 128 * (((cfg0.win 8).blk t).view.emb y 0).val + 127 = t.val := by
    show 128 * (win0_8.index t (0 : Fin 3) * 1 + 1 * (y 0).val) + 127 = t.val
    omega
  have hy : blkIdx (((cfg0.win 8).blk t).view.emb y) = y := by
    funext a
    apply Fin.ext
    match a with
    | ⟨0, _⟩ => show 0 = (y 0).val; omega
    | ⟨1, _⟩ => show win0_8.index t (1 : Fin 3) * 512 + 1 * (y 1).val = (y 1).val; omega
    | ⟨2, _⟩ => show win0_8.index t (2 : Fin 3) * 512 + 1 * (y 2).val = (y 2).val; omega
  rw [hn, hy]

/-- The two blocks tile result array 0, so after the run it is `res0`. -/
theorem final_0 (c : Dev nD) : (dats m 0 c).arrAt 8 cfg0.N = res0 m c :=
  (dats m 0 c).arrAt_eq_of_cover 8 (res0 m c) (flushed_0_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_0 ⟨128 * (i 0).val + 127, hlt⟩
    refine ⟨⟨128 * (i 0).val + 127, hlt⟩, (flush0_8 _).mpr (by dsimp only; omega), ?_⟩
    rw [mem_blk_0]
    intro a
    match a with
    | ⟨0, _⟩ => show win0_8.index ⟨128 * (i 0).val + 127, hlt⟩ (0 : Fin 3) * 1 ≤ (i 0).val ∧ (i 0).val < win0_8.index ⟨128 * (i 0).val + 127, hlt⟩ (0 : Fin 3) * 1 + 1; dsimp only at e0; omega
    | ⟨1, _⟩ => show win0_8.index ⟨128 * (i 0).val + 127, hlt⟩ (1 : Fin 3) * 512 ≤ (i 1).val ∧ (i 1).val < win0_8.index ⟨128 * (i 0).val + 127, hlt⟩ (1 : Fin 3) * 512 + 512; omega
    | ⟨2, _⟩ => show win0_8.index ⟨128 * (i 0).val + 127, hlt⟩ (2 : Fin 3) * 512 ≤ (i 2).val ∧ (i 2).val < win0_8.index ⟨128 * (i 0).val + 127, hlt⟩ (2 : Fin 3) * 512 + 512; omega

/-! ## Input window 1 and output window 9 -/

theorem idx_in_1 : ∀ t : Fin cfg0.N, win0_1.index t (0 : Fin 3) = 0 ∧ win0_1.index t (1 : Fin 3) = 0 ∧ win0_1.index t (2 : Fin 3) = t.val :=
  (by decide +kernel : ∀ t : Fin grid0.N, _)

theorem idx_out_1 : ∀ t : Fin cfg0.N, win0_9.index t (0 : Fin 3) = t.val / 128 ∧ win0_9.index t (1 : Fin 3) = 0 ∧ win0_9.index t (2 : Fin 3) = 0 :=
  (by decide +kernel : ∀ t : Fin grid0.N, _)

/-- Tile `t` of input 1, entry by entry, is the argument array at the tile's columns. -/
theorem iblk_1_apply (c : Dev nD) (t : Fin cfg0.N) (y : S1x512x256.Idx) :
    (iblk m c 1 t : Vec F S1x512x256 .f32) y = m ((c : Thread nD τ).loc main_arg1) (tileIdx t.val y) := by
  obtain ⟨e0, e1, e2⟩ := idx_in_1 t
  have hN : t.val < 256 := lt_of_lt_of_eq t.isLt (show cfg0.N = 256 from N_0)
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 3) * 1 + 1 * (y 0).val = 0; have hy : (y 0).val < 1 := (y 0).isLt; omega
  | ⟨1, _⟩ => show win0_1.index t (1 : Fin 3) * 512 + 1 * (y 1).val = (y 1).val; omega
  | ⟨2, _⟩ => show win0_1.index t (2 : Fin 3) * 256 + 1 * (y 2).val = (t.val * 256 + (y 2).val) % 65536; have hy : (y 2).val < 256 := (y 2).isLt; omega

/-- Result array 1 after the run: half `h`'s block is the running sum after the half's last tile. -/
def res1 (c : Dev nD) : Buf (Elt F) ((c : Thread nD τ).loc main_v0_1) := fun idx => O1 m c (128 * (idx 0).val + 127) (blkIdx idx)

theorem O1_at (c : Dev nD) (t : Fin cfg0.N) : outsAt0 m c t.val t.isLt 1 = O1 m c t.val := by
  unfold O1; rw [dif_pos t.isLt]

theorem mem_blk_1 (t : Fin cfg0.N) (i : S2x512x512.Idx) :
    i ∈ ((cfg0.win 9).blk t).view.set ↔ ∀ a : Fin 3, win0_9.index t a * S1x512x512.size a ≤ (i a).val ∧ (i a).val < win0_9.index t a * S1x512x512.size a + S1x512x512.size a := by
  show i ∈ ((View.whole main_v0_1).slice (win0_9.rect t)).set ↔ _
  rw [View.set_slice_whole, Rect.mem_set_unit]
  exact Iff.rfl

/-- What a point that writes output 1 back writes: its half's block of `res1`. -/
theorem flushed_1_eq (c : Dev nD) (t : Fin cfg0.N) (hf : (cfg0.win 9).flush t = true) :
    (dats m 0 c).flushed 9 t = ((cfg0.win 9).blk t).view.read (Elt F) (res1 m c) := by
  have hN : t.val < 256 := lt_of_lt_of_eq t.isLt (show cfg0.N = 256 from N_0)
  have h127 : t.val % 128 = 127 := (flush0_9 t).mp hf
  obtain ⟨e0, e1, e2⟩ := idx_out_1 t
  show (cfg0.win 9).cut (grid0.coords t) ((dats m 0 c).after 9 t) = _
  rw [after0_9, O1_at]
  funext y
  rw [View.read_apply]
  show O1 m c t.val y = O1 m c (128 * (((cfg0.win 9).blk t).view.emb y 0).val + 127) (blkIdx (((cfg0.win 9).blk t).view.emb y))
  have hy0 : (y 0).val < 1 := (y 0).isLt
  have hn : 128 * (((cfg0.win 9).blk t).view.emb y 0).val + 127 = t.val := by
    show 128 * (win0_9.index t (0 : Fin 3) * 1 + 1 * (y 0).val) + 127 = t.val
    omega
  have hy : blkIdx (((cfg0.win 9).blk t).view.emb y) = y := by
    funext a
    apply Fin.ext
    match a with
    | ⟨0, _⟩ => show 0 = (y 0).val; omega
    | ⟨1, _⟩ => show win0_9.index t (1 : Fin 3) * 512 + 1 * (y 1).val = (y 1).val; omega
    | ⟨2, _⟩ => show win0_9.index t (2 : Fin 3) * 512 + 1 * (y 2).val = (y 2).val; omega
  rw [hn, hy]

/-- The two blocks tile result array 1, so after the run it is `res1`. -/
theorem final_1 (c : Dev nD) : (dats m 0 c).arrAt 9 cfg0.N = res1 m c :=
  (dats m 0 c).arrAt_eq_of_cover 9 (res1 m c) (flushed_1_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_1 ⟨128 * (i 0).val + 127, hlt⟩
    refine ⟨⟨128 * (i 0).val + 127, hlt⟩, (flush0_9 _).mpr (by dsimp only; omega), ?_⟩
    rw [mem_blk_1]
    intro a
    match a with
    | ⟨0, _⟩ => show win0_9.index ⟨128 * (i 0).val + 127, hlt⟩ (0 : Fin 3) * 1 ≤ (i 0).val ∧ (i 0).val < win0_9.index ⟨128 * (i 0).val + 127, hlt⟩ (0 : Fin 3) * 1 + 1; dsimp only at e0; omega
    | ⟨1, _⟩ => show win0_9.index ⟨128 * (i 0).val + 127, hlt⟩ (1 : Fin 3) * 512 ≤ (i 1).val ∧ (i 1).val < win0_9.index ⟨128 * (i 0).val + 127, hlt⟩ (1 : Fin 3) * 512 + 512; omega
    | ⟨2, _⟩ => show win0_9.index ⟨128 * (i 0).val + 127, hlt⟩ (2 : Fin 3) * 512 ≤ (i 2).val ∧ (i 2).val < win0_9.index ⟨128 * (i 0).val + 127, hlt⟩ (2 : Fin 3) * 512 + 512; omega

/-! ## Input window 2 and output window 10 -/

theorem idx_in_2 : ∀ t : Fin cfg0.N, win0_2.index t (0 : Fin 3) = 0 ∧ win0_2.index t (1 : Fin 3) = 0 ∧ win0_2.index t (2 : Fin 3) = t.val :=
  (by decide +kernel : ∀ t : Fin grid0.N, _)

theorem idx_out_2 : ∀ t : Fin cfg0.N, win0_10.index t (0 : Fin 3) = t.val / 128 ∧ win0_10.index t (1 : Fin 3) = 0 ∧ win0_10.index t (2 : Fin 3) = 0 :=
  (by decide +kernel : ∀ t : Fin grid0.N, _)

/-- Tile `t` of input 2, entry by entry, is the argument array at the tile's columns. -/
theorem iblk_2_apply (c : Dev nD) (t : Fin cfg0.N) (y : S1x512x256.Idx) :
    (iblk m c 2 t : Vec F S1x512x256 .f32) y = m ((c : Thread nD τ).loc main_arg2) (tileIdx t.val y) := by
  obtain ⟨e0, e1, e2⟩ := idx_in_2 t
  have hN : t.val < 256 := lt_of_lt_of_eq t.isLt (show cfg0.N = 256 from N_0)
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 3) * 1 + 1 * (y 0).val = 0; have hy : (y 0).val < 1 := (y 0).isLt; omega
  | ⟨1, _⟩ => show win0_2.index t (1 : Fin 3) * 512 + 1 * (y 1).val = (y 1).val; omega
  | ⟨2, _⟩ => show win0_2.index t (2 : Fin 3) * 256 + 1 * (y 2).val = (t.val * 256 + (y 2).val) % 65536; have hy : (y 2).val < 256 := (y 2).isLt; omega

/-- Result array 2 after the run: half `h`'s block is the running sum after the half's last tile. -/
def res2 (c : Dev nD) : Buf (Elt F) ((c : Thread nD τ).loc main_v0_2) := fun idx => O2 m c (128 * (idx 0).val + 127) (blkIdx idx)

theorem O2_at (c : Dev nD) (t : Fin cfg0.N) : outsAt0 m c t.val t.isLt 2 = O2 m c t.val := by
  unfold O2; rw [dif_pos t.isLt]

theorem mem_blk_2 (t : Fin cfg0.N) (i : S2x512x512.Idx) :
    i ∈ ((cfg0.win 10).blk t).view.set ↔ ∀ a : Fin 3, win0_10.index t a * S1x512x512.size a ≤ (i a).val ∧ (i a).val < win0_10.index t a * S1x512x512.size a + S1x512x512.size a := by
  show i ∈ ((View.whole main_v0_2).slice (win0_10.rect t)).set ↔ _
  rw [View.set_slice_whole, Rect.mem_set_unit]
  exact Iff.rfl

/-- What a point that writes output 2 back writes: its half's block of `res2`. -/
theorem flushed_2_eq (c : Dev nD) (t : Fin cfg0.N) (hf : (cfg0.win 10).flush t = true) :
    (dats m 0 c).flushed 10 t = ((cfg0.win 10).blk t).view.read (Elt F) (res2 m c) := by
  have hN : t.val < 256 := lt_of_lt_of_eq t.isLt (show cfg0.N = 256 from N_0)
  have h127 : t.val % 128 = 127 := (flush0_10 t).mp hf
  obtain ⟨e0, e1, e2⟩ := idx_out_2 t
  show (cfg0.win 10).cut (grid0.coords t) ((dats m 0 c).after 10 t) = _
  rw [after0_10, O2_at]
  funext y
  rw [View.read_apply]
  show O2 m c t.val y = O2 m c (128 * (((cfg0.win 10).blk t).view.emb y 0).val + 127) (blkIdx (((cfg0.win 10).blk t).view.emb y))
  have hy0 : (y 0).val < 1 := (y 0).isLt
  have hn : 128 * (((cfg0.win 10).blk t).view.emb y 0).val + 127 = t.val := by
    show 128 * (win0_10.index t (0 : Fin 3) * 1 + 1 * (y 0).val) + 127 = t.val
    omega
  have hy : blkIdx (((cfg0.win 10).blk t).view.emb y) = y := by
    funext a
    apply Fin.ext
    match a with
    | ⟨0, _⟩ => show 0 = (y 0).val; omega
    | ⟨1, _⟩ => show win0_10.index t (1 : Fin 3) * 512 + 1 * (y 1).val = (y 1).val; omega
    | ⟨2, _⟩ => show win0_10.index t (2 : Fin 3) * 512 + 1 * (y 2).val = (y 2).val; omega
  rw [hn, hy]

/-- The two blocks tile result array 2, so after the run it is `res2`. -/
theorem final_2 (c : Dev nD) : (dats m 0 c).arrAt 10 cfg0.N = res2 m c :=
  (dats m 0 c).arrAt_eq_of_cover 10 (res2 m c) (flushed_2_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_2 ⟨128 * (i 0).val + 127, hlt⟩
    refine ⟨⟨128 * (i 0).val + 127, hlt⟩, (flush0_10 _).mpr (by dsimp only; omega), ?_⟩
    rw [mem_blk_2]
    intro a
    match a with
    | ⟨0, _⟩ => show win0_10.index ⟨128 * (i 0).val + 127, hlt⟩ (0 : Fin 3) * 1 ≤ (i 0).val ∧ (i 0).val < win0_10.index ⟨128 * (i 0).val + 127, hlt⟩ (0 : Fin 3) * 1 + 1; dsimp only at e0; omega
    | ⟨1, _⟩ => show win0_10.index ⟨128 * (i 0).val + 127, hlt⟩ (1 : Fin 3) * 512 ≤ (i 1).val ∧ (i 1).val < win0_10.index ⟨128 * (i 0).val + 127, hlt⟩ (1 : Fin 3) * 512 + 512; omega
    | ⟨2, _⟩ => show win0_10.index ⟨128 * (i 0).val + 127, hlt⟩ (2 : Fin 3) * 512 ≤ (i 2).val ∧ (i 2).val < win0_10.index ⟨128 * (i 0).val + 127, hlt⟩ (2 : Fin 3) * 512 + 512; omega

/-! ## Input window 3 and output window 11 -/

theorem idx_in_3 : ∀ t : Fin cfg0.N, win0_3.index t (0 : Fin 3) = 0 ∧ win0_3.index t (1 : Fin 3) = 0 ∧ win0_3.index t (2 : Fin 3) = t.val :=
  (by decide +kernel : ∀ t : Fin grid0.N, _)

theorem idx_out_3 : ∀ t : Fin cfg0.N, win0_11.index t (0 : Fin 3) = t.val / 128 ∧ win0_11.index t (1 : Fin 3) = 0 ∧ win0_11.index t (2 : Fin 3) = 0 :=
  (by decide +kernel : ∀ t : Fin grid0.N, _)

/-- Tile `t` of input 3, entry by entry, is the argument array at the tile's columns. -/
theorem iblk_3_apply (c : Dev nD) (t : Fin cfg0.N) (y : S1x512x256.Idx) :
    (iblk m c 3 t : Vec F S1x512x256 .f32) y = m ((c : Thread nD τ).loc main_arg3) (tileIdx t.val y) := by
  obtain ⟨e0, e1, e2⟩ := idx_in_3 t
  have hN : t.val < 256 := lt_of_lt_of_eq t.isLt (show cfg0.N = 256 from N_0)
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 3) * 1 + 1 * (y 0).val = 0; have hy : (y 0).val < 1 := (y 0).isLt; omega
  | ⟨1, _⟩ => show win0_3.index t (1 : Fin 3) * 512 + 1 * (y 1).val = (y 1).val; omega
  | ⟨2, _⟩ => show win0_3.index t (2 : Fin 3) * 256 + 1 * (y 2).val = (t.val * 256 + (y 2).val) % 65536; have hy : (y 2).val < 256 := (y 2).isLt; omega

/-- Result array 3 after the run: half `h`'s block is the running sum after the half's last tile. -/
def res3 (c : Dev nD) : Buf (Elt F) ((c : Thread nD τ).loc main_v0_3) := fun idx => O3 m c (128 * (idx 0).val + 127) (blkIdx idx)

theorem O3_at (c : Dev nD) (t : Fin cfg0.N) : outsAt0 m c t.val t.isLt 3 = O3 m c t.val := by
  unfold O3; rw [dif_pos t.isLt]

theorem mem_blk_3 (t : Fin cfg0.N) (i : S2x512x512.Idx) :
    i ∈ ((cfg0.win 11).blk t).view.set ↔ ∀ a : Fin 3, win0_11.index t a * S1x512x512.size a ≤ (i a).val ∧ (i a).val < win0_11.index t a * S1x512x512.size a + S1x512x512.size a := by
  show i ∈ ((View.whole main_v0_3).slice (win0_11.rect t)).set ↔ _
  rw [View.set_slice_whole, Rect.mem_set_unit]
  exact Iff.rfl

/-- What a point that writes output 3 back writes: its half's block of `res3`. -/
theorem flushed_3_eq (c : Dev nD) (t : Fin cfg0.N) (hf : (cfg0.win 11).flush t = true) :
    (dats m 0 c).flushed 11 t = ((cfg0.win 11).blk t).view.read (Elt F) (res3 m c) := by
  have hN : t.val < 256 := lt_of_lt_of_eq t.isLt (show cfg0.N = 256 from N_0)
  have h127 : t.val % 128 = 127 := (flush0_11 t).mp hf
  obtain ⟨e0, e1, e2⟩ := idx_out_3 t
  show (cfg0.win 11).cut (grid0.coords t) ((dats m 0 c).after 11 t) = _
  rw [after0_11, O3_at]
  funext y
  rw [View.read_apply]
  show O3 m c t.val y = O3 m c (128 * (((cfg0.win 11).blk t).view.emb y 0).val + 127) (blkIdx (((cfg0.win 11).blk t).view.emb y))
  have hy0 : (y 0).val < 1 := (y 0).isLt
  have hn : 128 * (((cfg0.win 11).blk t).view.emb y 0).val + 127 = t.val := by
    show 128 * (win0_11.index t (0 : Fin 3) * 1 + 1 * (y 0).val) + 127 = t.val
    omega
  have hy : blkIdx (((cfg0.win 11).blk t).view.emb y) = y := by
    funext a
    apply Fin.ext
    match a with
    | ⟨0, _⟩ => show 0 = (y 0).val; omega
    | ⟨1, _⟩ => show win0_11.index t (1 : Fin 3) * 512 + 1 * (y 1).val = (y 1).val; omega
    | ⟨2, _⟩ => show win0_11.index t (2 : Fin 3) * 512 + 1 * (y 2).val = (y 2).val; omega
  rw [hn, hy]

/-- The two blocks tile result array 3, so after the run it is `res3`. -/
theorem final_3 (c : Dev nD) : (dats m 0 c).arrAt 11 cfg0.N = res3 m c :=
  (dats m 0 c).arrAt_eq_of_cover 11 (res3 m c) (flushed_3_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_3 ⟨128 * (i 0).val + 127, hlt⟩
    refine ⟨⟨128 * (i 0).val + 127, hlt⟩, (flush0_11 _).mpr (by dsimp only; omega), ?_⟩
    rw [mem_blk_3]
    intro a
    match a with
    | ⟨0, _⟩ => show win0_11.index ⟨128 * (i 0).val + 127, hlt⟩ (0 : Fin 3) * 1 ≤ (i 0).val ∧ (i 0).val < win0_11.index ⟨128 * (i 0).val + 127, hlt⟩ (0 : Fin 3) * 1 + 1; dsimp only at e0; omega
    | ⟨1, _⟩ => show win0_11.index ⟨128 * (i 0).val + 127, hlt⟩ (1 : Fin 3) * 512 ≤ (i 1).val ∧ (i 1).val < win0_11.index ⟨128 * (i 0).val + 127, hlt⟩ (1 : Fin 3) * 512 + 512; omega
    | ⟨2, _⟩ => show win0_11.index ⟨128 * (i 0).val + 127, hlt⟩ (2 : Fin 3) * 512 ≤ (i 2).val ∧ (i 2).val < win0_11.index ⟨128 * (i 0).val + 127, hlt⟩ (2 : Fin 3) * 512 + 512; omega

/-! ## Input window 4 and output window 12 -/

theorem idx_in_4 : ∀ t : Fin cfg0.N, win0_4.index t (0 : Fin 3) = 0 ∧ win0_4.index t (1 : Fin 3) = 0 ∧ win0_4.index t (2 : Fin 3) = t.val :=
  (by decide +kernel : ∀ t : Fin grid0.N, _)

theorem idx_out_4 : ∀ t : Fin cfg0.N, win0_12.index t (0 : Fin 3) = t.val / 128 ∧ win0_12.index t (1 : Fin 3) = 0 ∧ win0_12.index t (2 : Fin 3) = 0 :=
  (by decide +kernel : ∀ t : Fin grid0.N, _)

/-- Tile `t` of input 4, entry by entry, is the argument array at the tile's columns. -/
theorem iblk_4_apply (c : Dev nD) (t : Fin cfg0.N) (y : S1x512x256.Idx) :
    (iblk m c 4 t : Vec F S1x512x256 .f32) y = m ((c : Thread nD τ).loc main_arg4) (tileIdx t.val y) := by
  obtain ⟨e0, e1, e2⟩ := idx_in_4 t
  have hN : t.val < 256 := lt_of_lt_of_eq t.isLt (show cfg0.N = 256 from N_0)
  unfold iblk
  rw [View.read_apply]
  show m ((c : Thread nD τ).loc main_arg4) _ = m ((c : Thread nD τ).loc main_arg4) _
  congr 1
  funext a
  apply Fin.ext
  match a with
  | ⟨0, _⟩ => show win0_4.index t (0 : Fin 3) * 1 + 1 * (y 0).val = 0; have hy : (y 0).val < 1 := (y 0).isLt; omega
  | ⟨1, _⟩ => show win0_4.index t (1 : Fin 3) * 512 + 1 * (y 1).val = (y 1).val; omega
  | ⟨2, _⟩ => show win0_4.index t (2 : Fin 3) * 256 + 1 * (y 2).val = (t.val * 256 + (y 2).val) % 65536; have hy : (y 2).val < 256 := (y 2).isLt; omega

/-- Result array 4 after the run: half `h`'s block is the running sum after the half's last tile. -/
def res4 (c : Dev nD) : Buf (Elt F) ((c : Thread nD τ).loc main_v0_4) := fun idx => O4 m c (128 * (idx 0).val + 127) (blkIdx idx)

theorem O4_at (c : Dev nD) (t : Fin cfg0.N) : outsAt0 m c t.val t.isLt 4 = O4 m c t.val := by
  unfold O4; rw [dif_pos t.isLt]

theorem mem_blk_4 (t : Fin cfg0.N) (i : S2x512x512.Idx) :
    i ∈ ((cfg0.win 12).blk t).view.set ↔ ∀ a : Fin 3, win0_12.index t a * S1x512x512.size a ≤ (i a).val ∧ (i a).val < win0_12.index t a * S1x512x512.size a + S1x512x512.size a := by
  show i ∈ ((View.whole main_v0_4).slice (win0_12.rect t)).set ↔ _
  rw [View.set_slice_whole, Rect.mem_set_unit]
  exact Iff.rfl

/-- What a point that writes output 4 back writes: its half's block of `res4`. -/
theorem flushed_4_eq (c : Dev nD) (t : Fin cfg0.N) (hf : (cfg0.win 12).flush t = true) :
    (dats m 0 c).flushed 12 t = ((cfg0.win 12).blk t).view.read (Elt F) (res4 m c) := by
  have hN : t.val < 256 := lt_of_lt_of_eq t.isLt (show cfg0.N = 256 from N_0)
  have h127 : t.val % 128 = 127 := (flush0_12 t).mp hf
  obtain ⟨e0, e1, e2⟩ := idx_out_4 t
  show (cfg0.win 12).cut (grid0.coords t) ((dats m 0 c).after 12 t) = _
  rw [after0_12, O4_at]
  funext y
  rw [View.read_apply]
  show O4 m c t.val y = O4 m c (128 * (((cfg0.win 12).blk t).view.emb y 0).val + 127) (blkIdx (((cfg0.win 12).blk t).view.emb y))
  have hy0 : (y 0).val < 1 := (y 0).isLt
  have hn : 128 * (((cfg0.win 12).blk t).view.emb y 0).val + 127 = t.val := by
    show 128 * (win0_12.index t (0 : Fin 3) * 1 + 1 * (y 0).val) + 127 = t.val
    omega
  have hy : blkIdx (((cfg0.win 12).blk t).view.emb y) = y := by
    funext a
    apply Fin.ext
    match a with
    | ⟨0, _⟩ => show 0 = (y 0).val; omega
    | ⟨1, _⟩ => show win0_12.index t (1 : Fin 3) * 512 + 1 * (y 1).val = (y 1).val; omega
    | ⟨2, _⟩ => show win0_12.index t (2 : Fin 3) * 512 + 1 * (y 2).val = (y 2).val; omega
  rw [hn, hy]

/-- The two blocks tile result array 4, so after the run it is `res4`. -/
theorem final_4 (c : Dev nD) : (dats m 0 c).arrAt 12 cfg0.N = res4 m c :=
  (dats m 0 c).arrAt_eq_of_cover 12 (res4 m c) (flushed_4_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_4 ⟨128 * (i 0).val + 127, hlt⟩
    refine ⟨⟨128 * (i 0).val + 127, hlt⟩, (flush0_12 _).mpr (by dsimp only; omega), ?_⟩
    rw [mem_blk_4]
    intro a
    match a with
    | ⟨0, _⟩ => show win0_12.index ⟨128 * (i 0).val + 127, hlt⟩ (0 : Fin 3) * 1 ≤ (i 0).val ∧ (i 0).val < win0_12.index ⟨128 * (i 0).val + 127, hlt⟩ (0 : Fin 3) * 1 + 1; dsimp only at e0; omega
    | ⟨1, _⟩ => show win0_12.index ⟨128 * (i 0).val + 127, hlt⟩ (1 : Fin 3) * 512 ≤ (i 1).val ∧ (i 1).val < win0_12.index ⟨128 * (i 0).val + 127, hlt⟩ (1 : Fin 3) * 512 + 512; omega
    | ⟨2, _⟩ => show win0_12.index ⟨128 * (i 0).val + 127, hlt⟩ (2 : Fin 3) * 512 ≤ (i 2).val ∧ (i 2).val < win0_12.index ⟨128 * (i 0).val + 127, hlt⟩ (2 : Fin 3) * 512 + 512; omega

/-! ## Input window 5 and output window 13 -/

theorem idx_in_5 : ∀ t : Fin cfg0.N, win0_5.index t (0 : Fin 3) = 0 ∧ win0_5.index t (1 : Fin 3) = 0 ∧ win0_5.index t (2 : Fin 3) = t.val :=
  (by decide +kernel : ∀ t : Fin grid0.N, _)

theorem idx_out_5 : ∀ t : Fin cfg0.N, win0_13.index t (0 : Fin 3) = t.val / 128 ∧ win0_13.index t (1 : Fin 3) = 0 ∧ win0_13.index t (2 : Fin 3) = 0 :=
  (by decide +kernel : ∀ t : Fin grid0.N, _)

/-- Tile `t` of input 5, entry by entry, is the argument array at the tile's columns. -/
theorem iblk_5_apply (c : Dev nD) (t : Fin cfg0.N) (y : S1x512x256.Idx) :
    (iblk m c 5 t : Vec F S1x512x256 .f32) y = m ((c : Thread nD τ).loc main_arg5) (tileIdx t.val y) := by
  obtain ⟨e0, e1, e2⟩ := idx_in_5 t
  have hN : t.val < 256 := lt_of_lt_of_eq t.isLt (show cfg0.N = 256 from N_0)
  unfold iblk
  rw [View.read_apply]
  show m ((c : Thread nD τ).loc main_arg5) _ = m ((c : Thread nD τ).loc main_arg5) _
  congr 1
  funext a
  apply Fin.ext
  match a with
  | ⟨0, _⟩ => show win0_5.index t (0 : Fin 3) * 1 + 1 * (y 0).val = 0; have hy : (y 0).val < 1 := (y 0).isLt; omega
  | ⟨1, _⟩ => show win0_5.index t (1 : Fin 3) * 512 + 1 * (y 1).val = (y 1).val; omega
  | ⟨2, _⟩ => show win0_5.index t (2 : Fin 3) * 256 + 1 * (y 2).val = (t.val * 256 + (y 2).val) % 65536; have hy : (y 2).val < 256 := (y 2).isLt; omega

/-- Result array 5 after the run: half `h`'s block is the running sum after the half's last tile. -/
def res5 (c : Dev nD) : Buf (Elt F) ((c : Thread nD τ).loc main_v0_5) := fun idx => O5 m c (128 * (idx 0).val + 127) (blkIdx idx)

theorem O5_at (c : Dev nD) (t : Fin cfg0.N) : outsAt0 m c t.val t.isLt 5 = O5 m c t.val := by
  unfold O5; rw [dif_pos t.isLt]

theorem mem_blk_5 (t : Fin cfg0.N) (i : S2x512x512.Idx) :
    i ∈ ((cfg0.win 13).blk t).view.set ↔ ∀ a : Fin 3, win0_13.index t a * S1x512x512.size a ≤ (i a).val ∧ (i a).val < win0_13.index t a * S1x512x512.size a + S1x512x512.size a := by
  show i ∈ ((View.whole main_v0_5).slice (win0_13.rect t)).set ↔ _
  rw [View.set_slice_whole, Rect.mem_set_unit]
  exact Iff.rfl

/-- What a point that writes output 5 back writes: its half's block of `res5`. -/
theorem flushed_5_eq (c : Dev nD) (t : Fin cfg0.N) (hf : (cfg0.win 13).flush t = true) :
    (dats m 0 c).flushed 13 t = ((cfg0.win 13).blk t).view.read (Elt F) (res5 m c) := by
  have hN : t.val < 256 := lt_of_lt_of_eq t.isLt (show cfg0.N = 256 from N_0)
  have h127 : t.val % 128 = 127 := (flush0_13 t).mp hf
  obtain ⟨e0, e1, e2⟩ := idx_out_5 t
  show (cfg0.win 13).cut (grid0.coords t) ((dats m 0 c).after 13 t) = _
  rw [after0_13, O5_at]
  funext y
  rw [View.read_apply]
  show O5 m c t.val y = O5 m c (128 * (((cfg0.win 13).blk t).view.emb y 0).val + 127) (blkIdx (((cfg0.win 13).blk t).view.emb y))
  have hy0 : (y 0).val < 1 := (y 0).isLt
  have hn : 128 * (((cfg0.win 13).blk t).view.emb y 0).val + 127 = t.val := by
    show 128 * (win0_13.index t (0 : Fin 3) * 1 + 1 * (y 0).val) + 127 = t.val
    omega
  have hy : blkIdx (((cfg0.win 13).blk t).view.emb y) = y := by
    funext a
    apply Fin.ext
    match a with
    | ⟨0, _⟩ => show 0 = (y 0).val; omega
    | ⟨1, _⟩ => show win0_13.index t (1 : Fin 3) * 512 + 1 * (y 1).val = (y 1).val; omega
    | ⟨2, _⟩ => show win0_13.index t (2 : Fin 3) * 512 + 1 * (y 2).val = (y 2).val; omega
  rw [hn, hy]

/-- The two blocks tile result array 5, so after the run it is `res5`. -/
theorem final_5 (c : Dev nD) : (dats m 0 c).arrAt 13 cfg0.N = res5 m c :=
  (dats m 0 c).arrAt_eq_of_cover 13 (res5 m c) (flushed_5_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_5 ⟨128 * (i 0).val + 127, hlt⟩
    refine ⟨⟨128 * (i 0).val + 127, hlt⟩, (flush0_13 _).mpr (by dsimp only; omega), ?_⟩
    rw [mem_blk_5]
    intro a
    match a with
    | ⟨0, _⟩ => show win0_13.index ⟨128 * (i 0).val + 127, hlt⟩ (0 : Fin 3) * 1 ≤ (i 0).val ∧ (i 0).val < win0_13.index ⟨128 * (i 0).val + 127, hlt⟩ (0 : Fin 3) * 1 + 1; dsimp only at e0; omega
    | ⟨1, _⟩ => show win0_13.index ⟨128 * (i 0).val + 127, hlt⟩ (1 : Fin 3) * 512 ≤ (i 1).val ∧ (i 1).val < win0_13.index ⟨128 * (i 0).val + 127, hlt⟩ (1 : Fin 3) * 512 + 512; omega
    | ⟨2, _⟩ => show win0_13.index ⟨128 * (i 0).val + 127, hlt⟩ (2 : Fin 3) * 512 ≤ (i 2).val ∧ (i 2).val < win0_13.index ⟨128 * (i 0).val + 127, hlt⟩ (2 : Fin 3) * 512 + 512; omega

/-! ## Input window 6 and output window 14 -/

theorem idx_in_6 : ∀ t : Fin cfg0.N, win0_6.index t (0 : Fin 3) = 0 ∧ win0_6.index t (1 : Fin 3) = 0 ∧ win0_6.index t (2 : Fin 3) = t.val :=
  (by decide +kernel : ∀ t : Fin grid0.N, _)

theorem idx_out_6 : ∀ t : Fin cfg0.N, win0_14.index t (0 : Fin 3) = t.val / 128 ∧ win0_14.index t (1 : Fin 3) = 0 ∧ win0_14.index t (2 : Fin 3) = 0 :=
  (by decide +kernel : ∀ t : Fin grid0.N, _)

/-- Tile `t` of input 6, entry by entry, is the argument array at the tile's columns. -/
theorem iblk_6_apply (c : Dev nD) (t : Fin cfg0.N) (y : S1x512x256.Idx) :
    (iblk m c 6 t : Vec F S1x512x256 .f32) y = m ((c : Thread nD τ).loc main_arg6) (tileIdx t.val y) := by
  obtain ⟨e0, e1, e2⟩ := idx_in_6 t
  have hN : t.val < 256 := lt_of_lt_of_eq t.isLt (show cfg0.N = 256 from N_0)
  unfold iblk
  rw [View.read_apply]
  show m ((c : Thread nD τ).loc main_arg6) _ = m ((c : Thread nD τ).loc main_arg6) _
  congr 1
  funext a
  apply Fin.ext
  match a with
  | ⟨0, _⟩ => show win0_6.index t (0 : Fin 3) * 1 + 1 * (y 0).val = 0; have hy : (y 0).val < 1 := (y 0).isLt; omega
  | ⟨1, _⟩ => show win0_6.index t (1 : Fin 3) * 512 + 1 * (y 1).val = (y 1).val; omega
  | ⟨2, _⟩ => show win0_6.index t (2 : Fin 3) * 256 + 1 * (y 2).val = (t.val * 256 + (y 2).val) % 65536; have hy : (y 2).val < 256 := (y 2).isLt; omega

/-- Result array 6 after the run: half `h`'s block is the running sum after the half's last tile. -/
def res6 (c : Dev nD) : Buf (Elt F) ((c : Thread nD τ).loc main_v0_6) := fun idx => O6 m c (128 * (idx 0).val + 127) (blkIdx idx)

theorem O6_at (c : Dev nD) (t : Fin cfg0.N) : outsAt0 m c t.val t.isLt 6 = O6 m c t.val := by
  unfold O6; rw [dif_pos t.isLt]

theorem mem_blk_6 (t : Fin cfg0.N) (i : S2x512x512.Idx) :
    i ∈ ((cfg0.win 14).blk t).view.set ↔ ∀ a : Fin 3, win0_14.index t a * S1x512x512.size a ≤ (i a).val ∧ (i a).val < win0_14.index t a * S1x512x512.size a + S1x512x512.size a := by
  show i ∈ ((View.whole main_v0_6).slice (win0_14.rect t)).set ↔ _
  rw [View.set_slice_whole, Rect.mem_set_unit]
  exact Iff.rfl

/-- What a point that writes output 6 back writes: its half's block of `res6`. -/
theorem flushed_6_eq (c : Dev nD) (t : Fin cfg0.N) (hf : (cfg0.win 14).flush t = true) :
    (dats m 0 c).flushed 14 t = ((cfg0.win 14).blk t).view.read (Elt F) (res6 m c) := by
  have hN : t.val < 256 := lt_of_lt_of_eq t.isLt (show cfg0.N = 256 from N_0)
  have h127 : t.val % 128 = 127 := (flush0_14 t).mp hf
  obtain ⟨e0, e1, e2⟩ := idx_out_6 t
  show (cfg0.win 14).cut (grid0.coords t) ((dats m 0 c).after 14 t) = _
  rw [after0_14, O6_at]
  funext y
  rw [View.read_apply]
  show O6 m c t.val y = O6 m c (128 * (((cfg0.win 14).blk t).view.emb y 0).val + 127) (blkIdx (((cfg0.win 14).blk t).view.emb y))
  have hy0 : (y 0).val < 1 := (y 0).isLt
  have hn : 128 * (((cfg0.win 14).blk t).view.emb y 0).val + 127 = t.val := by
    show 128 * (win0_14.index t (0 : Fin 3) * 1 + 1 * (y 0).val) + 127 = t.val
    omega
  have hy : blkIdx (((cfg0.win 14).blk t).view.emb y) = y := by
    funext a
    apply Fin.ext
    match a with
    | ⟨0, _⟩ => show 0 = (y 0).val; omega
    | ⟨1, _⟩ => show win0_14.index t (1 : Fin 3) * 512 + 1 * (y 1).val = (y 1).val; omega
    | ⟨2, _⟩ => show win0_14.index t (2 : Fin 3) * 512 + 1 * (y 2).val = (y 2).val; omega
  rw [hn, hy]

/-- The two blocks tile result array 6, so after the run it is `res6`. -/
theorem final_6 (c : Dev nD) : (dats m 0 c).arrAt 14 cfg0.N = res6 m c :=
  (dats m 0 c).arrAt_eq_of_cover 14 (res6 m c) (flushed_6_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_6 ⟨128 * (i 0).val + 127, hlt⟩
    refine ⟨⟨128 * (i 0).val + 127, hlt⟩, (flush0_14 _).mpr (by dsimp only; omega), ?_⟩
    rw [mem_blk_6]
    intro a
    match a with
    | ⟨0, _⟩ => show win0_14.index ⟨128 * (i 0).val + 127, hlt⟩ (0 : Fin 3) * 1 ≤ (i 0).val ∧ (i 0).val < win0_14.index ⟨128 * (i 0).val + 127, hlt⟩ (0 : Fin 3) * 1 + 1; dsimp only at e0; omega
    | ⟨1, _⟩ => show win0_14.index ⟨128 * (i 0).val + 127, hlt⟩ (1 : Fin 3) * 512 ≤ (i 1).val ∧ (i 1).val < win0_14.index ⟨128 * (i 0).val + 127, hlt⟩ (1 : Fin 3) * 512 + 512; omega
    | ⟨2, _⟩ => show win0_14.index ⟨128 * (i 0).val + 127, hlt⟩ (2 : Fin 3) * 512 ≤ (i 2).val ∧ (i 2).val < win0_14.index ⟨128 * (i 0).val + 127, hlt⟩ (2 : Fin 3) * 512 + 512; omega

/-! ## Input window 7 and output window 15 -/

theorem idx_in_7 : ∀ t : Fin cfg0.N, win0_7.index t (0 : Fin 3) = 0 ∧ win0_7.index t (1 : Fin 3) = 0 ∧ win0_7.index t (2 : Fin 3) = t.val :=
  (by decide +kernel : ∀ t : Fin grid0.N, _)

theorem idx_out_7 : ∀ t : Fin cfg0.N, win0_15.index t (0 : Fin 3) = t.val / 128 ∧ win0_15.index t (1 : Fin 3) = 0 ∧ win0_15.index t (2 : Fin 3) = 0 :=
  (by decide +kernel : ∀ t : Fin grid0.N, _)

/-- Tile `t` of input 7, entry by entry, is the argument array at the tile's columns. -/
theorem iblk_7_apply (c : Dev nD) (t : Fin cfg0.N) (y : S1x512x256.Idx) :
    (iblk m c 7 t : Vec F S1x512x256 .f32) y = m ((c : Thread nD τ).loc main_arg7) (tileIdx t.val y) := by
  obtain ⟨e0, e1, e2⟩ := idx_in_7 t
  have hN : t.val < 256 := lt_of_lt_of_eq t.isLt (show cfg0.N = 256 from N_0)
  unfold iblk
  rw [View.read_apply]
  show m ((c : Thread nD τ).loc main_arg7) _ = m ((c : Thread nD τ).loc main_arg7) _
  congr 1
  funext a
  apply Fin.ext
  match a with
  | ⟨0, _⟩ => show win0_7.index t (0 : Fin 3) * 1 + 1 * (y 0).val = 0; have hy : (y 0).val < 1 := (y 0).isLt; omega
  | ⟨1, _⟩ => show win0_7.index t (1 : Fin 3) * 512 + 1 * (y 1).val = (y 1).val; omega
  | ⟨2, _⟩ => show win0_7.index t (2 : Fin 3) * 256 + 1 * (y 2).val = (t.val * 256 + (y 2).val) % 65536; have hy : (y 2).val < 256 := (y 2).isLt; omega

/-- Result array 7 after the run: half `h`'s block is the running sum after the half's last tile. -/
def res7 (c : Dev nD) : Buf (Elt F) ((c : Thread nD τ).loc main_v0_7) := fun idx => O7 m c (128 * (idx 0).val + 127) (blkIdx idx)

theorem O7_at (c : Dev nD) (t : Fin cfg0.N) : outsAt0 m c t.val t.isLt 7 = O7 m c t.val := by
  unfold O7; rw [dif_pos t.isLt]

theorem mem_blk_7 (t : Fin cfg0.N) (i : S2x512x512.Idx) :
    i ∈ ((cfg0.win 15).blk t).view.set ↔ ∀ a : Fin 3, win0_15.index t a * S1x512x512.size a ≤ (i a).val ∧ (i a).val < win0_15.index t a * S1x512x512.size a + S1x512x512.size a := by
  show i ∈ ((View.whole main_v0_7).slice (win0_15.rect t)).set ↔ _
  rw [View.set_slice_whole, Rect.mem_set_unit]
  exact Iff.rfl

/-- What a point that writes output 7 back writes: its half's block of `res7`. -/
theorem flushed_7_eq (c : Dev nD) (t : Fin cfg0.N) (hf : (cfg0.win 15).flush t = true) :
    (dats m 0 c).flushed 15 t = ((cfg0.win 15).blk t).view.read (Elt F) (res7 m c) := by
  have hN : t.val < 256 := lt_of_lt_of_eq t.isLt (show cfg0.N = 256 from N_0)
  have h127 : t.val % 128 = 127 := (flush0_15 t).mp hf
  obtain ⟨e0, e1, e2⟩ := idx_out_7 t
  show (cfg0.win 15).cut (grid0.coords t) ((dats m 0 c).after 15 t) = _
  rw [after0_15, O7_at]
  funext y
  rw [View.read_apply]
  show O7 m c t.val y = O7 m c (128 * (((cfg0.win 15).blk t).view.emb y 0).val + 127) (blkIdx (((cfg0.win 15).blk t).view.emb y))
  have hy0 : (y 0).val < 1 := (y 0).isLt
  have hn : 128 * (((cfg0.win 15).blk t).view.emb y 0).val + 127 = t.val := by
    show 128 * (win0_15.index t (0 : Fin 3) * 1 + 1 * (y 0).val) + 127 = t.val
    omega
  have hy : blkIdx (((cfg0.win 15).blk t).view.emb y) = y := by
    funext a
    apply Fin.ext
    match a with
    | ⟨0, _⟩ => show 0 = (y 0).val; omega
    | ⟨1, _⟩ => show win0_15.index t (1 : Fin 3) * 512 + 1 * (y 1).val = (y 1).val; omega
    | ⟨2, _⟩ => show win0_15.index t (2 : Fin 3) * 512 + 1 * (y 2).val = (y 2).val; omega
  rw [hn, hy]

/-- The two blocks tile result array 7, so after the run it is `res7`. -/
theorem final_7 (c : Dev nD) : (dats m 0 c).arrAt 15 cfg0.N = res7 m c :=
  (dats m 0 c).arrAt_eq_of_cover 15 (res7 m c) (flushed_7_eq m c) fun i => by
    have hi0 : (i 0).val < 2 := (i 0).isLt
    have hi1 : (i 1).val < 512 := (i 1).isLt
    have hi2 : (i 2).val < 512 := (i 2).isLt
    have hlt : 128 * (i 0).val + 127 < cfg0.N := by rw [show cfg0.N = 256 from N_0]; omega
    obtain ⟨e0, e1, e2⟩ := idx_out_7 ⟨128 * (i 0).val + 127, hlt⟩
    refine ⟨⟨128 * (i 0).val + 127, hlt⟩, (flush0_15 _).mpr (by dsimp only; omega), ?_⟩
    rw [mem_blk_7]
    intro a
    match a with
    | ⟨0, _⟩ => show win0_15.index ⟨128 * (i 0).val + 127, hlt⟩ (0 : Fin 3) * 1 ≤ (i 0).val ∧ (i 0).val < win0_15.index ⟨128 * (i 0).val + 127, hlt⟩ (0 : Fin 3) * 1 + 1; dsimp only at e0; omega
    | ⟨1, _⟩ => show win0_15.index ⟨128 * (i 0).val + 127, hlt⟩ (1 : Fin 3) * 512 ≤ (i 1).val ∧ (i 1).val < win0_15.index ⟨128 * (i 0).val + 127, hlt⟩ (1 : Fin 3) * 512 + 512; omega
    | ⟨2, _⟩ => show win0_15.index ⟨128 * (i 0).val + 127, hlt⟩ (2 : Fin 3) * 512 ≤ (i 2).val ∧ (i 2).val < win0_15.index ⟨128 * (i 0).val + 127, hlt⟩ (2 : Fin 3) * 512 + 512; omega

end Cert.KernelIdeal.Hand

end
-- ==== Proof.PayloadAt.lean ====
import proofs.«133432_j18141941858429_2_alg».proof.Proof.Gen.KernelIdeal.Skeleton
import Idealize.ShloMosaic.PureOps.Ideal.Laws
import Idealize.ShloMosaic.Lib.ValueIdx
import Idealize.ShloMosaic.Lib.ValueLayout

/-!
# The kernel body's payloads, read at an index

At the ideal values (extended reals, exact sums, a change of format the identity) the accumulate step takes a tile
`x` of shape `[1, 512, 256]` and the accumulator block `prev` of shape `[1, 512, 512]` to the block whose entry
`(0, i, k)` is `prev (0, i, k) + ∑ q, x (0, i, q) * x (0, k, q)`: the product of the tile with its own transpose,
contracted over the tile's 256 columns, added to the accumulator.  The initial block is zero everywhere.
-/

noncomputable section

namespace Cert.GramValue

open Cert.KernelIdeal Cert.KernelIdeal.Gen Idealize.ShloMosaic Idealize.ShloMosaic.ValueIdx

/-- The left operand's row at output `(i, k)` is `i`. -/
theorem tileDot_lhs_0 (j : S512x512.Idx) (p : dot_S512x256_S512x256_S512x512_1_1_0_0_n_n.contr.Idx) :
    (dot_S512x256_S512x256_S512x512_1_1_0_0_n_n.lhsIdx j p 0).val = (j 0).val := by
  unfold DotDims.lhsIdx
  rw [dif_neg (show ¬(0 : Fin S512x256.rank) ∈ dot_S512x256_S512x256_S512x512_1_1_0_0_n_n.lhsBatch by decide),
    dif_pos (show (0 : Fin S512x256.rank) ∈ dot_S512x256_S512x256_S512x512_1_1_0_0_n_n.lhsNonContracting by decide)]
  rfl

/-- The left operand's column is the contraction coordinate. -/
theorem tileDot_lhs_1 (j : S512x512.Idx) (p : dot_S512x256_S512x256_S512x512_1_1_0_0_n_n.contr.Idx) :
    (dot_S512x256_S512x256_S512x512_1_1_0_0_n_n.lhsIdx j p 1).val = (p ⟨0, by decide⟩).val :=
  dot_S512x256_S512x256_S512x512_1_1_0_0_n_n.lhsIdx_val_of_single rfl j p

/-- The right operand's row at output `(i, k)` is `k`. -/
theorem tileDot_rhs_0 (j : S512x512.Idx) (p : dot_S512x256_S512x256_S512x512_1_1_0_0_n_n.contr.Idx) :
    (dot_S512x256_S512x256_S512x512_1_1_0_0_n_n.rhsIdx j p 0).val = (j 1).val := by
  unfold DotDims.rhsIdx
  rw [dif_neg (show ¬(0 : Fin S512x256.rank) ∈ dot_S512x256_S512x256_S512x512_1_1_0_0_n_n.rhsBatch by decide),
    dif_pos (show (0 : Fin S512x256.rank) ∈ dot_S512x256_S512x256_S512x512_1_1_0_0_n_n.rhsNonContracting by decide)]
  rfl

/-- The right operand's column is the contraction coordinate. -/
theorem tileDot_rhs_1 (j : S512x512.Idx) (p : dot_S512x256_S512x256_S512x512_1_1_0_0_n_n.contr.Idx) :
    (dot_S512x256_S512x256_S512x512_1_1_0_0_n_n.rhsIdx j p 1).val = (p ⟨0, by decide⟩).val :=
  dot_S512x256_S512x256_S512x512_1_1_0_0_n_n.rhsIdx_val_of_single rfl j p

/-- The left operand's index at output `(i, k)` and contraction coordinate `q` is `(i, q)`. -/
theorem tileDot_lhsIdx (i k : Fin 512) (q : Fin 256) :
    dot_S512x256_S512x256_S512x512_1_1_0_0_n_n.lhsIdx (ix2 (n0 := 512) (n1 := 512) i k)
        ((contrEquiv1 dot_S512x256_S512x256_S512x512_1_1_0_0_n_n 256 rfl rfl).symm q)
      = ix2 (n0 := 512) (n1 := 256) i q := by
  have hq := contrEquiv1_symm_val dot_S512x256_S512x256_S512x512_1_1_0_0_n_n 256 rfl rfl q
  exact funext fun a => Fin.ext (by
    match a with
    | ⟨0, _⟩ => exact tileDot_lhs_0 _ _
    | ⟨1, _⟩ => exact (tileDot_lhs_1 _ _).trans hq)

/-- The right operand's index at output `(i, k)` and contraction coordinate `q` is `(k, q)`. -/
theorem tileDot_rhsIdx (i k : Fin 512) (q : Fin 256) :
    dot_S512x256_S512x256_S512x512_1_1_0_0_n_n.rhsIdx (ix2 (n0 := 512) (n1 := 512) i k)
        ((contrEquiv1 dot_S512x256_S512x256_S512x512_1_1_0_0_n_n 256 rfl rfl).symm q)
      = ix2 (n0 := 512) (n1 := 256) k q := by
  have hq := contrEquiv1_symm_val dot_S512x256_S512x256_S512x512_1_1_0_0_n_n 256 rfl rfl q
  exact funext fun a => Fin.ext (by
    match a with
    | ⟨0, _⟩ => exact tileDot_rhs_0 _ _
    | ⟨1, _⟩ => exact (tileDot_rhs_1 _ _).trans hq)

/-- The accumulate step at `(0, i, k)`: the accumulator there plus `∑ q, x (0, i, q) * x (0, k, q)`. -/
theorem pay13_apply (x : Vec Ideal S1x512x256 .f32) (prev : Vec Ideal S1x512x512 .f32) (i k : Fin 512) :
    k0_pay13 (F := Ideal) x prev (ix3 (n0 := 1) (n1 := 512) (n2 := 512) 0 i k)
      = prev (ix3 (n0 := 1) (n1 := 512) (n2 := 512) 0 i k)
        + ∑ q : Fin 256, x (ix3 (n0 := 1) (n1 := 512) (n2 := 256) 0 i q)
            * x (ix3 (n0 := 1) (n1 := 512) (n2 := 256) 0 k q) := by
  unfold k0_pay13
  rw [shapeCast_ab_1ab_apply, addf_apply, shapeCast_1ab_ab_apply]
  simp only [matmul]
  rw [Ideal.matmul_constant_zero_apply,
    ← Equiv.sum_comp (contrEquiv1 dot_S512x256_S512x256_S512x512_1_1_0_0_n_n 256 rfl rfl).symm]
  congr 1
  refine Finset.sum_congr rfl fun q _ => ?_
  rw [tileDot_lhsIdx, tileDot_rhsIdx, truncf_apply, truncf_apply, shapeCast_1ab_ab_apply, shapeCast_1ab_ab_apply]

/-- The initial block is zero everywhere. -/
theorem pay4_apply (idx : S1x512x512.Idx) : k0_pay4 (F := Ideal) idx = 0 := by
  obtain ⟨u, i, k, rfl⟩ : ∃ (u : Fin 1) (i : Fin 512) (k : Fin 512), idx = ix3 u i k :=
    ⟨idx 0, idx 1, idx 2, eq_ix3 idx⟩
  unfold k0_pay4
  rw [shapeCast_ab_1ab_apply, broadcast_apply]
  exact Ideal.ofBits_zero_f32

end Cert.GramValue
-- ==== Proof.HalfSum.lean ====
import proofs.«133432_j18141941858429_2_alg».proof.KernelIdeal
import Idealize.ShloMosaic.PureOps.Ideal.Laws
import Idealize.ShloMosaic.Lib.ValueIdx

/-!
# The host's sum of the two halves, read at an index

The kernel leaves the two half-contractions in an array `P` of shape `[2, 512, 512]`; the host then sums
`P` over its first axis, starting from the constant `0`.  At the ideal values (extended reals, exact sums)
the result at `(i, j)` is `P (0, i, j) + P (1, i, j)`.
-/

noncomputable section

namespace Cert.GramValue

open Cert.KernelIdeal Idealize.ShloMosaic Idealize.ShloMosaic.ValueIdx

/-- The index the reduction inserts on the summed axis is `(k, i, j)`. -/
theorem halfSum_lift (h : S2x512x512.Reduces [0] S512x512) (idx : S512x512.Idx) (k : Fin 2) :
    h.lift idx k = ix3 (n0 := 2) (n1 := 512) (n2 := 512) k (idx 0) (idx 1) := by
  funext a
  match a with
  | ⟨0, _⟩ => rfl
  | ⟨1, _⟩ => rfl
  | ⟨2, _⟩ => rfl

/-- The sum over the first axis of a `[2, 512, 512]` array from an initial value `init`, at `(i, j)`. -/
theorem halfSum_apply_init (P : S2x512x512.Idx → EReal) (init : S_.Idx → EReal)
    (h' : S2x512x512.ReducesTo [0] S512x512) (hu : 0 < S_.numel) (idx : S512x512.Idx) :
    Host.reduceAdd (F := Ideal) (φ := .f32) P init h' hu idx
      = init (Shape.Idx.first hu) + (P (ix3 (n0 := 2) (n1 := 512) (n2 := 512) 0 (idx 0) (idx 1)) + P (ix3 (n0 := 2) (n1 := 512) (n2 := 512) 1 (idx 0) (idx 1))) := by
  have h : S2x512x512.Reduces [0] S512x512 := by decide
  unfold Host.reduceAdd
  rw [Ideal.hostReduceAdd_def, Ideal.hostReduceAdd_single h' h]
  congr 1
  exact (Fin.sum_univ_two (fun k : Fin 2 => P (h.lift idx k))).trans
    (by rw [halfSum_lift h idx 0, halfSum_lift h idx 1])

/-- With the initial value the zero constant, written with the zero in front. -/
theorem halfSum_apply_zero_add (P : S2x512x512.Idx → EReal)
    (h' : S2x512x512.ReducesTo [0] S512x512) (hu : 0 < S_.numel) (idx : S512x512.Idx) :
    Host.reduceAdd (F := Ideal) P (constant S_ .f32 0x00000000#32) h' hu idx
      = 0 + (P (ix3 (n0 := 2) (n1 := 512) (n2 := 512) 0 (idx 0) (idx 1)) + P (ix3 (n0 := 2) (n1 := 512) (n2 := 512) 1 (idx 0) (idx 1))) := by
  rw [halfSum_apply_init, constant_apply, Ideal.ofBits_zero_f32]

/-- The host's sum of the two halves at `(i, j)` is `P (0, i, j) + P (1, i, j)`. -/
theorem halfSum_apply (P : S2x512x512.Idx → EReal)
    (h' : S2x512x512.ReducesTo [0] S512x512) (hu : 0 < S_.numel) (idx : S512x512.Idx) :
    Host.reduceAdd (F := Ideal) P (constant S_ .f32 0x00000000#32) h' hu idx
      = P (ix3 (n0 := 2) (n1 := 512) (n2 := 512) 0 (idx 0) (idx 1)) + P (ix3 (n0 := 2) (n1 := 512) (n2 := 512) 1 (idx 0) (idx 1)) := by
  rw [halfSum_apply_zero_add, zero_add]

/-- The same at an index given by its coordinates. -/
theorem halfSum_apply_ix2 (P : S2x512x512.Idx → EReal)
    (h' : S2x512x512.ReducesTo [0] S512x512) (hu : 0 < S_.numel) (i j : Fin 512) :
    Host.reduceAdd (F := Ideal) P (constant S_ .f32 0x00000000#32) h' hu (ix2 (n0 := 512) (n1 := 512) i j)
      = P (ix3 (n0 := 2) (n1 := 512) (n2 := 512) 0 i j) + P (ix3 (n0 := 2) (n1 := 512) (n2 := 512) 1 i j) :=
  halfSum_apply P h' hu (ix2 (n0 := 512) (n1 := 512) i j)

end Cert.GramValue
-- ==== Proof.RefGramAt.lean ====
import proofs.«133432_j18141941858429_2_alg».proof.Proof.Gen.ReferenceIdeal.Read

/-!
# The reference's Gram matrix, read at an index

The reference reshapes an array `A` of shape `[1, 512, 65536]` to `[512, 65536]`, transposes that to
`[65536, 512]`, and contracts the two over the long axis.  At the ideal values (extended reals, exact sums)
the result at `(i, j)` is `∑ K, A (0, i, K) * A (0, j, K)`: the reshape only drops the unit axis, and the
transpose swaps the two coordinates back.
-/

noncomputable section

namespace Cert.GramValue

open Cert.ReferenceIdeal Cert.ReferenceIdeal.Gen Cert.ReferenceIdeal.Read Idealize.ShloMosaic
  Idealize.ShloMosaic.ValueIdx

/-- The reshape `[1, 512, 65536] → [512, 65536]` read at the left operand's index `(i, K)` is the array at
`(0, i, K)`. -/
theorem lidx_reshape (idx : S512x512.Idx) (K : Fin 65536) :
    idx_main_v0 (lidx_main_v2 idx K) = ix3 (n0 := 1) (n1 := 512) (n2 := 65536) 0 (idx 0) K := by
  have h0 : (idx 0).val < 512 := idx2_lt0 idx
  funext b
  match b with
  | ⟨0, _⟩ => rfl
  | ⟨1, _⟩ =>
    refine Fin.ext ?_
    show ((idx 0).val * 65536 + K.val) / 65536 % 512 = (idx 0).val
    omega
  | ⟨2, _⟩ =>
    refine Fin.ext ?_
    show ((idx 0).val * 65536 + K.val) % 65536 = K.val
    omega

/-- The transposed right operand's index `(K, j)`, read back through the transpose and the reshape, is the array at
`(0, j, K)`. -/
theorem ridx_reshape (idx : S512x512.Idx) (K : Fin 65536) :
    idx_main_v0 (idx_main_v1 (ridx_main_v2 idx K)) = ix3 (n0 := 1) (n1 := 512) (n2 := 65536) 0 (idx 1) K := by
  have h1 : (idx 1).val < 512 := idx2_lt1 idx
  funext b
  match b with
  | ⟨0, _⟩ => rfl
  | ⟨1, _⟩ =>
    refine Fin.ext ?_
    show ((idx 1).val * 65536 + K.val) / 65536 % 512 = (idx 1).val
    omega
  | ⟨2, _⟩ =>
    refine Fin.ext ?_
    show ((idx 1).val * 65536 + K.val) % 65536 = K.val
    omega

/-- The reference's `A · Aᵀ` at `(i, j)` is `∑ K, A (0, i, K) * A (0, j, K)`. -/
theorem refGram_apply (A : (⟨S1x512x65536, .f32⟩ : BufTy).Contents (Elt Ideal)) (idx : S512x512.Idx) :
    Host.dotGeneral (F := Ideal) (φ₁ := .f32) (φ₂ := .f32) dot_S512x65536_S65536x512_S512x512_1_0_0_1_n_n none
        (shapeCast _ A shapeCasts_S1x512x65536_S512x65536)
        (transpose S65536x512 [1, 0] (shapeCast _ A shapeCasts_S1x512x65536_S512x65536)
          transposes_S512x65536_S65536x512_1_0) idx
      = ∑ K : Fin 65536, A (ix3 (n0 := 1) (n1 := 512) (n2 := 65536) 0 (idx 0) K)
          * A (ix3 (n0 := 1) (n1 := 512) (n2 := 65536) 0 (idx 1) K) := by
  show val_main_v2 (F := Ideal) A idx = _
  rw [val_main_v2_apply]
  refine Finset.sum_congr rfl fun K _ => ?_
  rw [val_main_v1_apply, val_main_v0_apply, val_main_v0_apply, lidx_reshape, ridx_reshape]

/-- The same at an index given by its coordinates. -/
theorem refGram_apply_ix2 (A : (⟨S1x512x65536, .f32⟩ : BufTy).Contents (Elt Ideal)) (i j : Fin 512) :
    Host.dotGeneral (F := Ideal) (φ₁ := .f32) (φ₂ := .f32) dot_S512x65536_S65536x512_S512x512_1_0_0_1_n_n none
        (shapeCast _ A shapeCasts_S1x512x65536_S512x65536)
        (transpose S65536x512 [1, 0] (shapeCast _ A shapeCasts_S1x512x65536_S512x65536)
          transposes_S512x65536_S65536x512_1_0) (ix2 (n0 := 512) (n1 := 512) i j)
      = ∑ K : Fin 65536, A (ix3 (n0 := 1) (n1 := 512) (n2 := 65536) 0 i K)
          * A (ix3 (n0 := 1) (n1 := 512) (n2 := 65536) 0 j K) :=
  refGram_apply A (ix2 (n0 := 512) (n1 := 512) i j)

end Cert.GramValue
-- ==== Proof.GramSumRegroup.lean ====
import Mathlib.Algebra.BigOperators.Fin
import Mathlib.Algebra.BigOperators.Ring.Finset
import Mathlib.Data.Fintype.BigOperators
import Mathlib.Logic.Equiv.Fin.Basic

/-!
# Regrouping a sum over `Fin 65536` as a sum over halves, tiles and columns

Every `K < 65536` is written uniquely as `K = (h * 128 + d) * 256 + k` with `h < 2`, `d < 128`,
`k < 256` (mixed-radix digits of `K`).  Hence a sum over `K : Fin 65536` in a commutative additive
monoid equals the iterated sum over the digits `(h, d, k)`.
-/

noncomputable section

namespace Cert.GramValue

/-- The mixed-radix bijection `(h, d, k) ↦ (h * 128 + d) * 256 + k` from
`Fin 2 × Fin 128 × Fin 256` onto `Fin 65536`. -/
def digitsEquiv : Fin 2 × Fin 128 × Fin 256 ≃ Fin 65536 where
  toFun p := ⟨(p.1.val * 128 + p.2.1.val) * 256 + p.2.2.val, by omega⟩
  invFun K := (⟨K.val / 32768, by omega⟩, ⟨K.val / 256 % 128, by omega⟩, ⟨K.val % 256, by omega⟩)
  left_inv := by
    rintro ⟨h, d, k⟩
    refine Prod.ext (Fin.ext ?_) (Prod.ext (Fin.ext ?_) (Fin.ext ?_)) <;> simp only <;> omega
  right_inv := by
    intro K
    refine Fin.ext ?_
    simp only
    omega

@[simp] theorem digitsEquiv_apply (h : Fin 2) (d : Fin 128) (k : Fin 256) :
    digitsEquiv (h, d, k) = ⟨(h.val * 128 + d.val) * 256 + k.val, by omega⟩ := rfl

/-- A sum over `Fin 65536` regrouped by the digits `K = (h * 128 + d) * 256 + k`. -/
theorem sum_fin65536_regroup {M : Type*} [AddCommMonoid M] (f : Fin 65536 → M) :
    ∑ K : Fin 65536, f K
      = ∑ h : Fin 2, ∑ d : Fin 128, ∑ k : Fin 256,
          f ⟨(h.val * 128 + d.val) * 256 + k.val, by omega⟩ := by
  rw [← Equiv.sum_comp digitsEquiv f, Fintype.sum_prod_type]
  refine Finset.sum_congr rfl fun h _ => ?_
  rw [Fintype.sum_prod_type]
  rfl

end Cert.GramValue
-- ==== Proof.LossTail.lean ====
import proofs.«133432_j18141941858429_2_alg».proof.Proof.Gen.KernelIdeal.Launch
import proofs.«133432_j18141941858429_2_alg».proof.Proof.Gen.ReferenceIdeal.Run
import Idealize.ShloMosaic.Lib.StableHlo.Run
import Idealize.ShloMosaic.PureOps.Ideal

/-!
# The loss computed from eight Gram matrices, shared by the kernel's host lines and the reference

Both programs end the same way.  From Gram matrices `a₀ … a₃` (of the activations) and `t₀ … t₃` (of the
targets), each `512 × 512`, layer `l` contributes `‖tₗ - aₗ‖ / ‖tₗ‖`, with `‖g‖ = sqrt (∑ g²)` over all entries;
the four numbers are stacked into a `[4, 1]` array and summed over its first axis into a `[1]` array.  The kernel's
host lines apply this to the sums of the two half-contractions; the reference applies it to the contractions
`A · Aᵀ` themselves.
-/

noncomputable section

namespace Cert.GramValue

open Cert.KernelIdeal Cert.KernelIdeal.Gen Idealize.ShloMosaic Idealize.ShloMosaic.TcCoe Idealize.SL.Sem
  Idealize.ShloMosaic.StableHlo

/-- One layer's term `‖t - a‖ / ‖t‖` as a `[1, 1]` array. -/
def lossLayer (t a : FVec Ideal S512x512 .f32) : FVec Ideal S1x1 .f32 :=
  broadcastInDim S1x1 ![1] bcast_S1_S1x1_1 (broadcastInDim S1 ![] bcast_S_S1
    (Host.divf (F := Ideal)
      (Host.sqrt (F := Ideal) (Host.reduceAdd (F := Ideal) (mulf (subf t a) (subf t a))
        (constant (F := Ideal) S_ .f32 0x00000000#32) reducesTo_S512x512_S_d0_1 h_S_))
      (Host.sqrt (F := Ideal) (Host.reduceAdd (F := Ideal) (mulf t t)
        (constant (F := Ideal) S_ .f32 0x00000000#32) reducesTo_S512x512_S_d0_1 h_S_))))

/-- The loss from the activations' Gram matrices `a₀ … a₃` and the targets' `t₀ … t₃`: the four layers' terms
stacked and summed. -/
def lossTail (a0 a1 a2 a3 t0 t1 t2 t3 : FVec Ideal S512x512 .f32) : FVec Ideal S1 .f32 :=
  Host.reduceAdd (F := Ideal)
    (concatenate S4x1 0 [⟨S1x1, lossLayer t0 a0⟩, ⟨S1x1, lossLayer t1 a1⟩, ⟨S1x1, lossLayer t2 a2⟩,
      ⟨S1x1, lossLayer t3 a3⟩] concatenates_S1x1_S1x1_S1x1_S1x1_S4x1_d0)
    (constant (F := Ideal) S_ .f32 0x00000000#32) reducesTo_S4x1_S1_d0 h_S_

/-- The host's sum of the two half-contractions of a `[2, 512, 512]` array. -/
abbrev tailHalf (P : FVec Ideal S2x512x512 .f32) : FVec Ideal S512x512 .f32 :=
  Host.reduceAdd (F := Ideal) P (constant (F := Ideal) S_ .f32 0x00000000#32) reducesTo_S2x512x512_S512x512_d0 h_S_

/-- The reference's contraction `A · Aᵀ` of a `[1, 512, 65536]` array. -/
abbrev tailGram (A : (⟨Cert.ReferenceIdeal.S1x512x65536, .f32⟩ : BufTy).Contents (Elt Ideal)) : FVec Ideal S512x512 .f32 :=
  Host.dotGeneral (F := Ideal) (φ₁ := .f32) (φ₂ := .f32) Cert.ReferenceIdeal.dot_S512x65536_S65536x512_S512x512_1_0_0_1_n_n none
    (shapeCast _ A Cert.ReferenceIdeal.Gen.shapeCasts_S1x512x65536_S512x65536)
    (transpose Cert.ReferenceIdeal.S65536x512 [1, 0] (shapeCast _ A Cert.ReferenceIdeal.Gen.shapeCasts_S1x512x65536_S512x65536)
      Cert.ReferenceIdeal.Gen.transposes_S512x65536_S65536x512_1_0)

/-- The reference's result is the loss of the eight contractions: activations from the first four arguments,
targets from the last four. -/
theorem refTail_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v49 (F := Ideal) m' c
      = lossTail (tailGram (m' ((c.tc : Thread Cert.ReferenceIdeal.nD Cert.ReferenceIdeal.τ).loc Cert.ReferenceIdeal.main_arg0))) (tailGram (m' ((c.tc : Thread Cert.ReferenceIdeal.nD Cert.ReferenceIdeal.τ).loc Cert.ReferenceIdeal.main_arg1)))
          (tailGram (m' ((c.tc : Thread Cert.ReferenceIdeal.nD Cert.ReferenceIdeal.τ).loc Cert.ReferenceIdeal.main_arg2))) (tailGram (m' ((c.tc : Thread Cert.ReferenceIdeal.nD Cert.ReferenceIdeal.τ).loc Cert.ReferenceIdeal.main_arg3)))
          (tailGram (m' ((c.tc : Thread Cert.ReferenceIdeal.nD Cert.ReferenceIdeal.τ).loc Cert.ReferenceIdeal.main_arg4))) (tailGram (m' ((c.tc : Thread Cert.ReferenceIdeal.nD Cert.ReferenceIdeal.τ).loc Cert.ReferenceIdeal.main_arg5)))
          (tailGram (m' ((c.tc : Thread Cert.ReferenceIdeal.nD Cert.ReferenceIdeal.τ).loc Cert.ReferenceIdeal.main_arg6))) (tailGram (m' ((c.tc : Thread Cert.ReferenceIdeal.nD Cert.ReferenceIdeal.τ).loc Cert.ReferenceIdeal.main_arg7))) := by
  unfold Cert.ReferenceIdeal.Value.res_main_v49
  rfl

set_option maxRecDepth 8192 in
set_option maxHeartbeats 40000000 in
/-- The kernel's host lines after the region leave, in the result buffer, the loss of the eight sums of
half-contractions: activations from the first four result arrays, targets from the last four. -/
theorem kernelTail_eq (W : Valuation τ sig (Elt Ideal)) :
    StableHlo.after (hostOps1 (F := Ideal)) W (Proc.devRef .tc main_v50)
      = lossTail (tailHalf (W (Proc.devRef .tc main_v0_0))) (tailHalf (W (Proc.devRef .tc main_v0_1)))
          (tailHalf (W (Proc.devRef .tc main_v0_2))) (tailHalf (W (Proc.devRef .tc main_v0_3)))
          (tailHalf (W (Proc.devRef .tc main_v0_4))) (tailHalf (W (Proc.devRef .tc main_v0_5)))
          (tailHalf (W (Proc.devRef .tc main_v0_6))) (tailHalf (W (Proc.devRef .tc main_v0_7))) := by
  after_results_simp
  rfl

end Cert.GramValue
-- ==== Proof.KIGram.lean ====
/-
  The Gram identity over the extended reals. Each output block's running sum, read at an entry (i, k), is the sum
  over the tiles so far of the tile's products x[i,q]·x[k,q]; the tiles of the two halves together are all 65536
  columns; so the host's sum of the two halves of result array `j` is the reference's contraction of argument
  array `j` with itself over all columns. Only the commutative-monoid laws of addition are used.
-/
import proofs.«133432_j18141941858429_2_alg».proof.Proof.KIArrays
import proofs.«133432_j18141941858429_2_alg».proof.Proof.PayloadAt
import proofs.«133432_j18141941858429_2_alg».proof.Proof.HalfSum
import proofs.«133432_j18141941858429_2_alg».proof.Proof.RefGramAt
import proofs.«133432_j18141941858429_2_alg».proof.Proof.GramSumRegroup
import proofs.«133432_j18141941858429_2_alg».proof.Proof.LossTail

noncomputable section

namespace Cert.KernelIdeal.Hand

open Cert.KernelIdeal Cert.KernelIdeal.Gen Cert.GramValue
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- One tile's Gram product at the entry (i, k): the sum over the tile's 256 columns. -/
def tileG (A : S1x512x65536.Idx → EReal) (t : ℕ) (i k : Fin 512) : EReal :=
  ∑ q : Fin 256, A (tileIdx t (ix3 (n0 := 1) (n1 := 512) (n2 := 256) 0 i q)) * A (tileIdx t (ix3 (n0 := 1) (n1 := 512) (n2 := 256) 0 k q))

theorem blkIdx_ix3 (h : Fin 2) (i k : Fin 512) :
    blkIdx (ix3 (n0 := 2) (n1 := 512) (n2 := 512) h i k) = ix3 (n0 := 1) (n1 := 512) (n2 := 512) 0 i k := by
  funext a; match a with | ⟨0, _⟩ => rfl | ⟨1, _⟩ => rfl | ⟨2, _⟩ => rfl

/-- Column q of tile 128·h + d is column (h·128 + d)·256 + q of the array. -/
theorem tileIdx_ix3 (h : Fin 2) (d : Fin 128) (i : Fin 512) (q : Fin 256) :
    tileIdx (128 * h.val + d.val) (ix3 (n0 := 1) (n1 := 512) (n2 := 256) 0 i q)
      = ix3 (n0 := 1) (n1 := 512) (n2 := 65536) 0 i ⟨(h.val * 128 + d.val) * 256 + q.val, by omega⟩ := by
  funext a
  match a with
  | ⟨0, _⟩ => rfl
  | ⟨1, _⟩ => rfl
  | ⟨2, _⟩ => exact Fin.ext (by show (((128 * h.val + d.val) * 256 + q.val) % 65536 = (h.val * 128 + d.val) * 256 + q.val); omega)

/-! ## Array 0 -/

theorem res0_apply (c : Dev nD) (h : Fin 2) (i k : Fin 512) :
    res0 (F := Ideal) m c (ix3 (n0 := 2) (n1 := 512) (n2 := 512) h i k)
      = O0 (F := Ideal) m c (128 * h.val + 127) (ix3 (n0 := 1) (n1 := 512) (n2 := 512) 0 i k) := by
  unfold res0; rw [blkIdx_ix3]; rfl

/-- The running sum of output 0 after tile d of half h, at (i, k): the tiles' products so far. -/
theorem O0_sum (c : Dev nD) (h : Fin 2) (i k : Fin 512) : ∀ d, d < 128 →
    O0 (F := Ideal) m c (128 * h.val + d) (ix3 (n0 := 1) (n1 := 512) (n2 := 512) 0 i k)
      = ∑ d' ∈ Finset.range (d + 1), tileG (m ((c : Thread nD τ).loc main_arg0)) (128 * h.val + d') i k
  | 0, _ => by
    have hN : cfg0.N = 256 := N_0
    have hh : h.val < 2 := h.isLt
    rw [show 128 * h.val + 0 = 128 * h.val from rfl, O0_first m c (128 * h.val) (by omega) (by omega)]
    unfold step zeroBlk
    rw [pay13_apply, pay4_apply, zero_add, Finset.sum_range_one]
    unfold tileG
    simp only [iblk_0_apply]
    rfl
  | d + 1, hd => by
    have hN : cfg0.N = 256 := N_0
    have hh : h.val < 2 := h.isLt
    rw [show 128 * h.val + (d + 1) = (128 * h.val + d) + 1 from rfl, O0_next m c (128 * h.val + d) (by omega) (by omega)]
    unfold step
    rw [pay13_apply, O0_sum c h i k d (by omega), Finset.sum_range_succ _ (d + 1)]
    congr 1
    unfold tileG
    simp only [iblk_0_apply]
    rfl

/-- The host's sum of the two halves of result array 0 is the contraction of argument array 0 with itself. -/
theorem gram_0 (c : Dev nD) :
    tailHalf (res0 (F := Ideal) m c) = tailGram (m ((c : Thread nD τ).loc main_arg0)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res0_apply, res0_apply,
    O0_sum m c 0 i k 127 (by omega), O0_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 1 -/

theorem res1_apply (c : Dev nD) (h : Fin 2) (i k : Fin 512) :
    res1 (F := Ideal) m c (ix3 (n0 := 2) (n1 := 512) (n2 := 512) h i k)
      = O1 (F := Ideal) m c (128 * h.val + 127) (ix3 (n0 := 1) (n1 := 512) (n2 := 512) 0 i k) := by
  unfold res1; rw [blkIdx_ix3]; rfl

/-- The running sum of output 1 after tile d of half h, at (i, k): the tiles' products so far. -/
theorem O1_sum (c : Dev nD) (h : Fin 2) (i k : Fin 512) : ∀ d, d < 128 →
    O1 (F := Ideal) m c (128 * h.val + d) (ix3 (n0 := 1) (n1 := 512) (n2 := 512) 0 i k)
      = ∑ d' ∈ Finset.range (d + 1), tileG (m ((c : Thread nD τ).loc main_arg1)) (128 * h.val + d') i k
  | 0, _ => by
    have hN : cfg0.N = 256 := N_0
    have hh : h.val < 2 := h.isLt
    rw [show 128 * h.val + 0 = 128 * h.val from rfl, O1_first m c (128 * h.val) (by omega) (by omega)]
    unfold step zeroBlk
    rw [pay13_apply, pay4_apply, zero_add, Finset.sum_range_one]
    unfold tileG
    simp only [iblk_1_apply]
    rfl
  | d + 1, hd => by
    have hN : cfg0.N = 256 := N_0
    have hh : h.val < 2 := h.isLt
    rw [show 128 * h.val + (d + 1) = (128 * h.val + d) + 1 from rfl, O1_next m c (128 * h.val + d) (by omega) (by omega)]
    unfold step
    rw [pay13_apply, O1_sum c h i k d (by omega), Finset.sum_range_succ _ (d + 1)]
    congr 1
    unfold tileG
    simp only [iblk_1_apply]
    rfl

/-- The host's sum of the two halves of result array 1 is the contraction of argument array 1 with itself. -/
theorem gram_1 (c : Dev nD) :
    tailHalf (res1 (F := Ideal) m c) = tailGram (m ((c : Thread nD τ).loc main_arg1)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res1_apply, res1_apply,
    O1_sum m c 0 i k 127 (by omega), O1_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 2 -/

theorem res2_apply (c : Dev nD) (h : Fin 2) (i k : Fin 512) :
    res2 (F := Ideal) m c (ix3 (n0 := 2) (n1 := 512) (n2 := 512) h i k)
      = O2 (F := Ideal) m c (128 * h.val + 127) (ix3 (n0 := 1) (n1 := 512) (n2 := 512) 0 i k) := by
  unfold res2; rw [blkIdx_ix3]; rfl

/-- The running sum of output 2 after tile d of half h, at (i, k): the tiles' products so far. -/
theorem O2_sum (c : Dev nD) (h : Fin 2) (i k : Fin 512) : ∀ d, d < 128 →
    O2 (F := Ideal) m c (128 * h.val + d) (ix3 (n0 := 1) (n1 := 512) (n2 := 512) 0 i k)
      = ∑ d' ∈ Finset.range (d + 1), tileG (m ((c : Thread nD τ).loc main_arg2)) (128 * h.val + d') i k
  | 0, _ => by
    have hN : cfg0.N = 256 := N_0
    have hh : h.val < 2 := h.isLt
    rw [show 128 * h.val + 0 = 128 * h.val from rfl, O2_first m c (128 * h.val) (by omega) (by omega)]
    unfold step zeroBlk
    rw [pay13_apply, pay4_apply, zero_add, Finset.sum_range_one]
    unfold tileG
    simp only [iblk_2_apply]
    rfl
  | d + 1, hd => by
    have hN : cfg0.N = 256 := N_0
    have hh : h.val < 2 := h.isLt
    rw [show 128 * h.val + (d + 1) = (128 * h.val + d) + 1 from rfl, O2_next m c (128 * h.val + d) (by omega) (by omega)]
    unfold step
    rw [pay13_apply, O2_sum c h i k d (by omega), Finset.sum_range_succ _ (d + 1)]
    congr 1
    unfold tileG
    simp only [iblk_2_apply]
    rfl

/-- The host's sum of the two halves of result array 2 is the contraction of argument array 2 with itself. -/
theorem gram_2 (c : Dev nD) :
    tailHalf (res2 (F := Ideal) m c) = tailGram (m ((c : Thread nD τ).loc main_arg2)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res2_apply, res2_apply,
    O2_sum m c 0 i k 127 (by omega), O2_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 3 -/

theorem res3_apply (c : Dev nD) (h : Fin 2) (i k : Fin 512) :
    res3 (F := Ideal) m c (ix3 (n0 := 2) (n1 := 512) (n2 := 512) h i k)
      = O3 (F := Ideal) m c (128 * h.val + 127) (ix3 (n0 := 1) (n1 := 512) (n2 := 512) 0 i k) := by
  unfold res3; rw [blkIdx_ix3]; rfl

/-- The running sum of output 3 after tile d of half h, at (i, k): the tiles' products so far. -/
theorem O3_sum (c : Dev nD) (h : Fin 2) (i k : Fin 512) : ∀ d, d < 128 →
    O3 (F := Ideal) m c (128 * h.val + d) (ix3 (n0 := 1) (n1 := 512) (n2 := 512) 0 i k)
      = ∑ d' ∈ Finset.range (d + 1), tileG (m ((c : Thread nD τ).loc main_arg3)) (128 * h.val + d') i k
  | 0, _ => by
    have hN : cfg0.N = 256 := N_0
    have hh : h.val < 2 := h.isLt
    rw [show 128 * h.val + 0 = 128 * h.val from rfl, O3_first m c (128 * h.val) (by omega) (by omega)]
    unfold step zeroBlk
    rw [pay13_apply, pay4_apply, zero_add, Finset.sum_range_one]
    unfold tileG
    simp only [iblk_3_apply]
    rfl
  | d + 1, hd => by
    have hN : cfg0.N = 256 := N_0
    have hh : h.val < 2 := h.isLt
    rw [show 128 * h.val + (d + 1) = (128 * h.val + d) + 1 from rfl, O3_next m c (128 * h.val + d) (by omega) (by omega)]
    unfold step
    rw [pay13_apply, O3_sum c h i k d (by omega), Finset.sum_range_succ _ (d + 1)]
    congr 1
    unfold tileG
    simp only [iblk_3_apply]
    rfl

/-- The host's sum of the two halves of result array 3 is the contraction of argument array 3 with itself. -/
theorem gram_3 (c : Dev nD) :
    tailHalf (res3 (F := Ideal) m c) = tailGram (m ((c : Thread nD τ).loc main_arg3)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res3_apply, res3_apply,
    O3_sum m c 0 i k 127 (by omega), O3_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 4 -/

theorem res4_apply (c : Dev nD) (h : Fin 2) (i k : Fin 512) :
    res4 (F := Ideal) m c (ix3 (n0 := 2) (n1 := 512) (n2 := 512) h i k)
      = O4 (F := Ideal) m c (128 * h.val + 127) (ix3 (n0 := 1) (n1 := 512) (n2 := 512) 0 i k) := by
  unfold res4; rw [blkIdx_ix3]; rfl

/-- The running sum of output 4 after tile d of half h, at (i, k): the tiles' products so far. -/
theorem O4_sum (c : Dev nD) (h : Fin 2) (i k : Fin 512) : ∀ d, d < 128 →
    O4 (F := Ideal) m c (128 * h.val + d) (ix3 (n0 := 1) (n1 := 512) (n2 := 512) 0 i k)
      = ∑ d' ∈ Finset.range (d + 1), tileG (m ((c : Thread nD τ).loc main_arg4)) (128 * h.val + d') i k
  | 0, _ => by
    have hN : cfg0.N = 256 := N_0
    have hh : h.val < 2 := h.isLt
    rw [show 128 * h.val + 0 = 128 * h.val from rfl, O4_first m c (128 * h.val) (by omega) (by omega)]
    unfold step zeroBlk
    rw [pay13_apply, pay4_apply, zero_add, Finset.sum_range_one]
    unfold tileG
    simp only [iblk_4_apply]
    rfl
  | d + 1, hd => by
    have hN : cfg0.N = 256 := N_0
    have hh : h.val < 2 := h.isLt
    rw [show 128 * h.val + (d + 1) = (128 * h.val + d) + 1 from rfl, O4_next m c (128 * h.val + d) (by omega) (by omega)]
    unfold step
    rw [pay13_apply, O4_sum c h i k d (by omega), Finset.sum_range_succ _ (d + 1)]
    congr 1
    unfold tileG
    simp only [iblk_4_apply]
    rfl

/-- The host's sum of the two halves of result array 4 is the contraction of argument array 4 with itself. -/
theorem gram_4 (c : Dev nD) :
    tailHalf (res4 (F := Ideal) m c) = tailGram (m ((c : Thread nD τ).loc main_arg4)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res4_apply, res4_apply,
    O4_sum m c 0 i k 127 (by omega), O4_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 5 -/

theorem res5_apply (c : Dev nD) (h : Fin 2) (i k : Fin 512) :
    res5 (F := Ideal) m c (ix3 (n0 := 2) (n1 := 512) (n2 := 512) h i k)
      = O5 (F := Ideal) m c (128 * h.val + 127) (ix3 (n0 := 1) (n1 := 512) (n2 := 512) 0 i k) := by
  unfold res5; rw [blkIdx_ix3]; rfl

/-- The running sum of output 5 after tile d of half h, at (i, k): the tiles' products so far. -/
theorem O5_sum (c : Dev nD) (h : Fin 2) (i k : Fin 512) : ∀ d, d < 128 →
    O5 (F := Ideal) m c (128 * h.val + d) (ix3 (n0 := 1) (n1 := 512) (n2 := 512) 0 i k)
      = ∑ d' ∈ Finset.range (d + 1), tileG (m ((c : Thread nD τ).loc main_arg5)) (128 * h.val + d') i k
  | 0, _ => by
    have hN : cfg0.N = 256 := N_0
    have hh : h.val < 2 := h.isLt
    rw [show 128 * h.val + 0 = 128 * h.val from rfl, O5_first m c (128 * h.val) (by omega) (by omega)]
    unfold step zeroBlk
    rw [pay13_apply, pay4_apply, zero_add, Finset.sum_range_one]
    unfold tileG
    simp only [iblk_5_apply]
    rfl
  | d + 1, hd => by
    have hN : cfg0.N = 256 := N_0
    have hh : h.val < 2 := h.isLt
    rw [show 128 * h.val + (d + 1) = (128 * h.val + d) + 1 from rfl, O5_next m c (128 * h.val + d) (by omega) (by omega)]
    unfold step
    rw [pay13_apply, O5_sum c h i k d (by omega), Finset.sum_range_succ _ (d + 1)]
    congr 1
    unfold tileG
    simp only [iblk_5_apply]
    rfl

/-- The host's sum of the two halves of result array 5 is the contraction of argument array 5 with itself. -/
theorem gram_5 (c : Dev nD) :
    tailHalf (res5 (F := Ideal) m c) = tailGram (m ((c : Thread nD τ).loc main_arg5)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res5_apply, res5_apply,
    O5_sum m c 0 i k 127 (by omega), O5_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 6 -/

theorem res6_apply (c : Dev nD) (h : Fin 2) (i k : Fin 512) :
    res6 (F := Ideal) m c (ix3 (n0 := 2) (n1 := 512) (n2 := 512) h i k)
      = O6 (F := Ideal) m c (128 * h.val + 127) (ix3 (n0 := 1) (n1 := 512) (n2 := 512) 0 i k) := by
  unfold res6; rw [blkIdx_ix3]; rfl

/-- The running sum of output 6 after tile d of half h, at (i, k): the tiles' products so far. -/
theorem O6_sum (c : Dev nD) (h : Fin 2) (i k : Fin 512) : ∀ d, d < 128 →
    O6 (F := Ideal) m c (128 * h.val + d) (ix3 (n0 := 1) (n1 := 512) (n2 := 512) 0 i k)
      = ∑ d' ∈ Finset.range (d + 1), tileG (m ((c : Thread nD τ).loc main_arg6)) (128 * h.val + d') i k
  | 0, _ => by
    have hN : cfg0.N = 256 := N_0
    have hh : h.val < 2 := h.isLt
    rw [show 128 * h.val + 0 = 128 * h.val from rfl, O6_first m c (128 * h.val) (by omega) (by omega)]
    unfold step zeroBlk
    rw [pay13_apply, pay4_apply, zero_add, Finset.sum_range_one]
    unfold tileG
    simp only [iblk_6_apply]
    rfl
  | d + 1, hd => by
    have hN : cfg0.N = 256 := N_0
    have hh : h.val < 2 := h.isLt
    rw [show 128 * h.val + (d + 1) = (128 * h.val + d) + 1 from rfl, O6_next m c (128 * h.val + d) (by omega) (by omega)]
    unfold step
    rw [pay13_apply, O6_sum c h i k d (by omega), Finset.sum_range_succ _ (d + 1)]
    congr 1
    unfold tileG
    simp only [iblk_6_apply]
    rfl

/-- The host's sum of the two halves of result array 6 is the contraction of argument array 6 with itself. -/
theorem gram_6 (c : Dev nD) :
    tailHalf (res6 (F := Ideal) m c) = tailGram (m ((c : Thread nD τ).loc main_arg6)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res6_apply, res6_apply,
    O6_sum m c 0 i k 127 (by omega), O6_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

/-! ## Array 7 -/

theorem res7_apply (c : Dev nD) (h : Fin 2) (i k : Fin 512) :
    res7 (F := Ideal) m c (ix3 (n0 := 2) (n1 := 512) (n2 := 512) h i k)
      = O7 (F := Ideal) m c (128 * h.val + 127) (ix3 (n0 := 1) (n1 := 512) (n2 := 512) 0 i k) := by
  unfold res7; rw [blkIdx_ix3]; rfl

/-- The running sum of output 7 after tile d of half h, at (i, k): the tiles' products so far. -/
theorem O7_sum (c : Dev nD) (h : Fin 2) (i k : Fin 512) : ∀ d, d < 128 →
    O7 (F := Ideal) m c (128 * h.val + d) (ix3 (n0 := 1) (n1 := 512) (n2 := 512) 0 i k)
      = ∑ d' ∈ Finset.range (d + 1), tileG (m ((c : Thread nD τ).loc main_arg7)) (128 * h.val + d') i k
  | 0, _ => by
    have hN : cfg0.N = 256 := N_0
    have hh : h.val < 2 := h.isLt
    rw [show 128 * h.val + 0 = 128 * h.val from rfl, O7_first m c (128 * h.val) (by omega) (by omega)]
    unfold step zeroBlk
    rw [pay13_apply, pay4_apply, zero_add, Finset.sum_range_one]
    unfold tileG
    simp only [iblk_7_apply]
    rfl
  | d + 1, hd => by
    have hN : cfg0.N = 256 := N_0
    have hh : h.val < 2 := h.isLt
    rw [show 128 * h.val + (d + 1) = (128 * h.val + d) + 1 from rfl, O7_next m c (128 * h.val + d) (by omega) (by omega)]
    unfold step
    rw [pay13_apply, O7_sum c h i k d (by omega), Finset.sum_range_succ _ (d + 1)]
    congr 1
    unfold tileG
    simp only [iblk_7_apply]
    rfl

/-- The host's sum of the two halves of result array 7 is the contraction of argument array 7 with itself. -/
theorem gram_7 (c : Dev nD) :
    tailHalf (res7 (F := Ideal) m c) = tailGram (m ((c : Thread nD τ).loc main_arg7)) := by
  funext idx
  obtain ⟨i, k, rfl⟩ : ∃ (i k : Fin 512), idx = ix2 (n0 := 512) (n1 := 512) i k := ⟨idx 0, idx 1, eq_ix2 idx⟩
  unfold tailHalf tailGram
  rw [halfSum_apply_ix2, refGram_apply_ix2, res7_apply, res7_apply,
    O7_sum m c 0 i k 127 (by omega), O7_sum m c 1 i k 127 (by omega),
    sum_fin65536_regroup, Fin.sum_univ_two, Finset.sum_range, Finset.sum_range]
  congr 1
  · refine Finset.sum_congr rfl fun d _ => ?_
    unfold tileG
    refine Finset.sum_congr rfl fun q _ => ?_
    rw [tileIdx_ix3 0 d i q, tileIdx_ix3 0 d k q]
  · refine Finset.sum_congr rfl fun d _ => ?_
    unfold tileG
    refine Finset.sum_congr rfl fun q _ => ?_
    rw [tileIdx_ix3 1 d i q, tileIdx_ix3 1 d k q]

end Cert.KernelIdeal.Hand

end
-- ==== Proof.KIRun.lean ====
/-
  The idealized kernel's run, read. After the region each of the eight result arrays is the function of the points'
  running sums that the blocks make it; the host lines then form, from the sums of their halves, the four ratios of
  Frobenius norms and add them; and the sum of the halves of result array `j` is the Gram matrix of argument array
  `j`. So @main ends with its result at the loss of the eight Gram matrices, and its arguments unchanged.
-/
import proofs.«133432_j18141941858429_2_alg».proof.Proof.KIGram

noncomputable section

namespace Cert.KernelIdeal.Hand

open Cert.KernelIdeal Cert.KernelIdeal.Gen Cert.GramValue
open Idealize.ShloMosaic Idealize.ShloMosaic.TcCoe Idealize.ShloMosaic.ValueIdx
open Idealize.SL.Sem

variable (m : (ℓ : Loc nD τ sig) → Buf (Elt Ideal) ℓ) (ρ : Dev nD → PrngReg)

theorem v50_rest : main_v50 ∈ Pipeline.restRefs sig spec0 := Pipeline.mem_restRefs_of main_v50 rfl (by decide)

/-- What @main's result buffer ends holding: the loss of the Gram matrices of the eight argument arrays. -/
def result (c : Dev nD) : Buf (Elt Ideal) ((c.tc : Thread nD τ).loc main_v50) :=
  lossTail (tailGram (m ((c.tc : Thread nD τ).loc main_arg0))) (tailGram (m ((c.tc : Thread nD τ).loc main_arg1))) (tailGram (m ((c.tc : Thread nD τ).loc main_arg2))) (tailGram (m ((c.tc : Thread nD τ).loc main_arg3))) (tailGram (m ((c.tc : Thread nD τ).loc main_arg4))) (tailGram (m ((c.tc : Thread nD τ).loc main_arg5))) (tailGram (m ((c.tc : Thread nD τ).loc main_arg6))) (tailGram (m ((c.tc : Thread nD τ).loc main_arg7)))

/-- The host lines, run from any contents that have the eight result arrays at the blocks' functions, leave the loss. -/
theorem tail_of (c : Dev nD) (W : Valuation τ sig (Elt Ideal))
    (h0 : W (Proc.devRef .tc main_v0_0) = res0 (F := Ideal) m c)
    (h1 : W (Proc.devRef .tc main_v0_1) = res1 (F := Ideal) m c)
    (h2 : W (Proc.devRef .tc main_v0_2) = res2 (F := Ideal) m c)
    (h3 : W (Proc.devRef .tc main_v0_3) = res3 (F := Ideal) m c)
    (h4 : W (Proc.devRef .tc main_v0_4) = res4 (F := Ideal) m c)
    (h5 : W (Proc.devRef .tc main_v0_5) = res5 (F := Ideal) m c)
    (h6 : W (Proc.devRef .tc main_v0_6) = res6 (F := Ideal) m c)
    (h7 : W (Proc.devRef .tc main_v0_7) = res7 (F := Ideal) m c) :
    StableHlo.after (hostOps1 (F := Ideal)) W (Proc.devRef .tc main_v50) = result m c := by
  rw [kernelTail_eq, h0, h1, h2, h3, h4, h5, h6, h7, gram_0, gram_1, gram_2, gram_3, gram_4, gram_5, gram_6, gram_7]
  rfl

theorem tail_value (c : Dev nD) :
    Pipeline.afterTail₀ cfgs (dats (F := Ideal) m) 0 (V0 m) [hostOps1] c main_v50 = result m c := by
  unfold Pipeline.afterTail₀
  show StableHlo.after (hostOps1 (F := Ideal)) _ (Proc.devRef .tc main_v50) = _
  exact tail_of m c _
    ((Pipeline.withArrays_arr spec0 launch0.win.arr_inj c _ _ 8).trans (final_0 m c))
    ((Pipeline.withArrays_arr spec0 launch0.win.arr_inj c _ _ 9).trans (final_1 m c))
    ((Pipeline.withArrays_arr spec0 launch0.win.arr_inj c _ _ 10).trans (final_2 m c))
    ((Pipeline.withArrays_arr spec0 launch0.win.arr_inj c _ _ 11).trans (final_3 m c))
    ((Pipeline.withArrays_arr spec0 launch0.win.arr_inj c _ _ 12).trans (final_4 m c))
    ((Pipeline.withArrays_arr spec0 launch0.win.arr_inj c _ _ 13).trans (final_5 m c))
    ((Pipeline.withArrays_arr spec0 launch0.win.arr_inj c _ _ 14).trans (final_6 m c))
    ((Pipeline.withArrays_arr spec0 launch0.win.arr_inj c _ _ 15).trans (final_7 m c))

/-- Every weakly fair execution of the idealized kernel's @main terminates with its result at the loss of the eight
    Gram matrices and its argument arrays unchanged. -/
theorem run_value : θ_run defs (onTc (τ := τ) (main (F := Ideal))) ⟨m, fun _ => 0, ρ⟩ (fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v50 v50_rest).trans (tail_value m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩)
    (run_main (F := Ideal) m ρ)

end Cert.KernelIdeal.Hand

end
-- ==== Proof.lean ====
/-
  The certificate of the Gram-loss kernel against its jnp reference.

  For each of four layers the programs take an activation array and a target array of shape [1, 512, 65536], form
  the two Gram matrices G(x) = x·xᵀ (512 × 512), and return the sum over the layers of ‖G(t) − G(a)‖ / ‖G(t)‖ in
  the Frobenius norm. The reference contracts all 65536 columns at once. The kernel walks a grid of two halves
  of 128 tiles of 256 columns: per half it keeps eight 512 × 512 accumulators, reset at the half's first tile and
  increased by the tile's Gram product at every tile, written back after the half's last tile; the host then adds
  the two halves and forms the norms and ratios exactly as the reference does.

  Over the extended reals the two agree because a sum of 65536 products may be grouped as 2 × 128 × 256 — addition
  there is commutative and associative, and nothing else is used; the precondition is not needed for the values.
  The three frames are the two kernel programs' runs over the grid (one proof, read at the word level and at the
  extended reals) and the reference's straight-line run; the ideal pass rewrote nothing.
-/
import proofs.«133432_j18141941858429_2_alg».proof.Defs
import proofs.«133432_j18141941858429_2_alg».proof.Proof.Gen.Kernel
import proofs.«133432_j18141941858429_2_alg».proof.Proof.Gen.KernelIdeal
import proofs.«133432_j18141941858429_2_alg».proof.Proof.Gen.ReferenceIdeal
import proofs.«133432_j18141941858429_2_alg».proof.Proof.Gen.Pre_finite_inputs
import proofs.«133432_j18141941858429_2_alg».proof.Proof.Gen.ReferenceIdeal.Run
import proofs.«133432_j18141941858429_2_alg».proof.Proof.KFrame
import proofs.«133432_j18141941858429_2_alg».proof.Proof.KIRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its straight-line run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the Gram matrices of argument arrays that agree. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.GramValue.refTail_eq, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
